-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x150x1024 : Shape := ⟨3, ![256, 150, 1024]⟩
abbrev S1x40x1024 : Shape := ⟨3, ![1, 40, 1024]⟩
abbrev S_ : Shape := ⟨0, ![]⟩

class Facts : Prop where
  bcast_S_S256x150x1024 : S_.BroadcastsInDim S256x150x1024 (![] : Fin 0 → Fin S256x150x1024.rank)
  reducesTo_S256x150x1024_S_d0_1_2 : S256x150x1024.ReducesTo [0, 1, 2] S_
  h_S_ : 0 < S_.numel
  bcast_S_S1x40x1024 : S_.BroadcastsInDim S1x40x1024 (![] : Fin 0 → Fin S1x40x1024.rank)
  reducesTo_S1x40x1024_S_d0_1_2 : S1x40x1024.ReducesTo [0, 1, 2] S_

variable [Facts]

def fn {F : FTy → Type} [FloatOps F] (main_arg0 : FVec F S256x150x1024 .f32) (main_arg1 : FVec F S1x40x1024 .f32) : IVec S_ 1 :=
  let main_v0 : FVec F S256x150x1024 .f32 := Host.absf main_arg0
  let main_cst : FVec F S_ .f32 := constant S_ .f32 0x7F800000#32
  let main_v1 : FVec F S256x150x1024 .f32 := broadcastInDim S256x150x1024 ![] bcast_S_S256x150x1024 main_cst
  let main_v2 : IVec S256x150x1024 1 := cmpf .olt main_v0 main_v1
  let main_c : IVec S_ 1 := constantI S_ 1 1#1
  let main_v3 : IVec S_ 1 := (fun x v => Host.reduce IntOp.andi x v reducesTo_S256x150x1024_S_d0_1_2 h_S_) main_v2 main_c
  let main_v4 : FVec F S1x40x1024 .f32 := Host.absf main_arg1
  let main_cst_0 : FVec F S_ .f32 := constant S_ .f32 0x7F800000#32
  let main_v5 : FVec F S1x40x1024 .f32 := broadcastInDim S1x40x1024 ![] bcast_S_S1x40x1024 main_cst_0
  let main_v6 : IVec S1x40x1024 1 := cmpf .olt main_v4 main_v5
  let main_c_1 : IVec S_ 1 := constantI S_ 1 1#1
  let main_v7 : IVec S_ 1 := (fun x v => Host.reduce IntOp.andi x v reducesTo_S1x40x1024_S_d0_1_2 h_S_) main_v6 main_c_1
  let main_v8 : IVec S_ 1 := andi main_v3 main_v7
  main_v8
-- ==== Kernel.lean ====
abbrev S256x150x1024 : Shape := ⟨3, ![256, 150, 1024]⟩
abbrev S1x40x1024 : Shape := ⟨3, ![1, 40, 1024]⟩
abbrev S150x21 : Shape := ⟨2, ![150, 21]⟩
abbrev S40x1024 : Shape := ⟨2, ![40, 1024]⟩
abbrev S1024x40 : Shape := ⟨2, ![1024, 40]⟩
abbrev S_ : Shape := ⟨0, ![]⟩
abbrev S40 : Shape := ⟨1, ![40]⟩
abbrev S1x40 : Shape := ⟨2, ![1, 40]⟩
abbrev S40x40 : Shape := ⟨2, ![40, 40]⟩
abbrev S256x21 : Shape := ⟨2, ![256, 21]⟩
abbrev S16x150x1024 : Shape := ⟨3, ![16, 150, 1024]⟩
abbrev S16x21 : Shape := ⟨2, ![16, 21]⟩
abbrev S2400x1024 : Shape := ⟨2, ![2400, 1024]⟩
abbrev S2400x40 : Shape := ⟨2, ![2400, 40]⟩
abbrev S2400 : Shape := ⟨1, ![2400]⟩
abbrev S2400x1 : Shape := ⟨2, ![2400, 1]⟩
abbrev S16x150 : Shape := ⟨2, ![16, 150]⟩

abbrev nBuf : Space → Nat
  | .hbm => 14
  | .vmem => 8
  | .smem => 0
  | _ => 0

abbrev bufTy : (tb : Table) → Fin (tcTables nBuf tb) → BufTy
  | .hbm, ⟨0, _⟩ => ⟨S256x150x1024, .f32⟩
  | .hbm, ⟨1, _⟩ => ⟨S1x40x1024, .f32⟩
  | .hbm, ⟨2, _⟩ => ⟨S150x21, .f32⟩
  | .hbm, ⟨3, _⟩ => ⟨S40x1024, .f32⟩
  | .hbm, ⟨4, _⟩ => ⟨S40x1024, .bf16⟩
  | .hbm, ⟨5, _⟩ => ⟨S1024x40, .bf16⟩
  | .hbm, ⟨6, _⟩ => ⟨S40x1024, .f32⟩
  | .hbm, ⟨7, _⟩ => ⟨S_, .f32⟩
  | .hbm, ⟨8, _⟩ => ⟨S40, .f32⟩
  | .hbm, ⟨9, _⟩ => ⟨S40, .f32⟩
  | .hbm, ⟨10, _⟩ => ⟨S1x40, .f32⟩
  | .hbm, ⟨11, _⟩ => ⟨S1024x40, .f32⟩
  | .hbm, ⟨12, _⟩ => ⟨S40x40, .f32⟩
  | .hbm, ⟨13, _⟩ => ⟨S256x21, .f32⟩
  | .local _ .vmem, ⟨0, _⟩ => ⟨S16x150x1024, .f32⟩
  | .local _ .vmem, ⟨1, _⟩ => ⟨S16x150x1024, .f32⟩
  | .local _ .vmem, ⟨2, _⟩ => ⟨S1024x40, .bf16⟩
  | .local _ .vmem, ⟨3, _⟩ => ⟨S40x40, .f32⟩
  | .local _ .vmem, ⟨4, _⟩ => ⟨S1x40, .f32⟩
  | .local _ .vmem, ⟨5, _⟩ => ⟨S150x21, .f32⟩
  | .local _ .vmem, ⟨6, _⟩ => ⟨S16x21, .f32⟩
  | .local _ .vmem, ⟨7, _⟩ => ⟨S16x21, .f32⟩
  | _, _ => ⟨S256x150x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x150x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x40 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S150x21 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x21 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x40x1024_S40x1024 : S1x40x1024.ShapeCasts S40x1024
  bitsLt_bf16_f32 : FTy.bits .bf16 < FTy.bits .f32
  transposes_S40x1024_S1024x40_1_0 : S40x1024.Transposes [1, 0] S1024x40
  reducesTo_S40x1024_S40_d1 : S40x1024.ReducesTo [1] S40
  h_S_ : 0 < S_.numel
  bcast_S40_S1x40_1 : S40.BroadcastsInDim S1x40 (![1] : Fin 1 → Fin S1x40.rank)
  inb_S16x150x1024_S16x150x1024_0_0_0 : ∀ a, (![0, 0, 0] : Fin 3 → Nat) a + S16x150x1024.size a ≤ S16x150x1024.size a
  h_S16x150x1024 : 0 < S16x150x1024.numel
  inb_S1024x40_S1024x40_0_0 : ∀ a, (![0, 0] : Fin 2 → Nat) a + S1024x40.size a ≤ S1024x40.size a
  h_S1024x40 : 0 < S1024x40.numel
  shapeCasts_S1024x40_S1024x40 : S1024x40.ShapeCasts S1024x40
  shapeCasts_S16x150x1024_S2400x1024 : S16x150x1024.ShapeCasts S2400x1024
  reduces_S2400x1024_S2400 : S2400x1024.Reduces [1] S2400
  shapeCasts_S2400_S2400x1 : S2400.ShapeCasts S2400x1
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S2400x1_S2400x40 : S2400x1.Broadcasts S2400x40
  broadcasts_S1x40_S2400x40 : S1x40.Broadcasts S2400x40
  reduces_S2400x40_S2400 : S2400x40.Reduces [1] S2400
  inb_S40x40_S40x40_0_0 : ∀ a, (![0, 0] : Fin 2 → Nat) a + S40x40.size a ≤ S40x40.size a
  h_S40x40 : 0 < S40x40.numel
  shapeCasts_S40x40_S40x40 : S40x40.ShapeCasts S40x40
  shapeCasts_S2400x1_S16x150 : S2400x1.ShapeCasts S16x150
  inb_S150x21_S150x21_0_0 : ∀ a, (![0, 0] : Fin 2 → Nat) a + S150x21.size a ≤ S150x21.size a
  h_S150x21 : 0 < S150x21.numel
  inb_S16x21_S16x21_0_0 : ∀ a, (![0, 0] : Fin 2 → Nat) a + S16x21.size a ≤ S16x21.size a
  h_S16x21 : 0 < S16x21.numel
  dot_S40x1024_S1024x40_S40x40_1_0_0_1_n_n_wf : DotDims.WF S40x1024 S1024x40 S40x40 [1] [0] [0] [1] [] []
  dot_S2400x1024_S1024x40_S2400x40_1_0_0_1_n_n_wf : DotDims.WF S2400x1024 S1024x40 S2400x40 [1] [0] [0] [1] [] []
  dot_S2400x40_S40x40_S2400x40_1_0_0_1_n_n_wf : DotDims.WF S2400x40 S40x40 S2400x40 [1] [0] [0] [1] [] []
  dot_S16x150_S150x21_S16x21_1_0_0_1_n_n_wf : DotDims.WF S16x150 S150x21 S16x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x150x1024.size a ≤ S256x150x1024.size a
  hwx0_0 : ∀ i : grid0.Coords, EltTy.bits .f32 = 32 ∨ (Rect.block (s := S256x150x1024) S16x150x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x40.size a ≤ S1024x40.size a
  hwx0_1 : ∀ i : grid0.Coords, EltTy.bits .bf16 = 32 ∨ (Rect.block (s := S1024x40) S1024x40.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x40.size a ≤ S40x40.size a
  hwx0_2 : ∀ i : grid0.Coords, EltTy.bits .f32 = 32 ∨ (Rect.block (s := S40x40) S40x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x40.size a ≤ S1x40.size a
  hwx0_3 : ∀ i : grid0.Coords, EltTy.bits .f32 = 32 ∨ (Rect.block (s := S1x40) S1x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S150x21.size a ≤ S150x21.size a
  hwx0_4 : ∀ i : grid0.Coords, EltTy.bits .f32 = 32 ∨ (Rect.block (s := S150x21) S150x21.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x21.size a ≤ S256x21.size a
  hwx0_5 : ∀ i : grid0.Coords, EltTy.bits .f32 = 32 ∨ (Rect.block (s := S256x21) S16x21.size (cc0_transform_5 i) (hinb0_5 i)).WholeWords (EltTy.packing .f32)

variable [Facts₀]

def dot_S40x1024_S1024x40_S40x40_1_0_0_1_n_n : DotDims S40x1024 S1024x40 S40x40 where
  lhsContracting := [1]
  rhsContracting := [0]
  lhsNonContracting := [0]
  rhsNonContracting := [1]
  lhsBatch := []
  rhsBatch := []
  wf := dot_S40x1024_S1024x40_S40x40_1_0_0_1_n_n_wf
def dot_S2400x1024_S1024x40_S2400x40_1_0_0_1_n_n : DotDims S2400x1024 S1024x40 S2400x40 where
  lhsContracting := [1]
  rhsContracting := [0]
  lhsNonContracting := [0]
  rhsNonContracting := [1]
  lhsBatch := []
  rhsBatch := []
  wf := dot_S2400x1024_S1024x40_S2400x40_1_0_0_1_n_n_wf
def dot_S2400x40_S40x40_S2400x40_1_0_0_1_n_n : DotDims S2400x40 S40x40 S2400x40 where
  lhsContracting := [1]
  rhsContracting := [0]
  lhsNonContracting := [0]
  rhsNonContracting := [1]
  lhsBatch := []
  rhsBatch := []
  wf := dot_S2400x40_S40x40_S2400x40_1_0_0_1_n_n_wf
def dot_S16x150_S150x21_S16x21_1_0_0_1_n_n : DotDims S16x150 S150x21 S16x21 where
  lhsContracting := [1]
  rhsContracting := [0]
  lhsNonContracting := [0]
  rhsNonContracting := [1]
  lhsBatch := []
  rhsBatch := []
  wf := dot_S16x150_S150x21_S16x21_1_0_0_1_n_n_wf

abbrev win0_0 : Pipeline.Window sig grid0 :=
  Pipeline.Window.ofSpec (Memref.whole main_arg0) S16x150x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S40x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst) S150x21.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x21.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x150x1024 : Shape := ⟨3, ![256, 150, 1024]⟩
abbrev S1x40x1024 : Shape := ⟨3, ![1, 40, 1024]⟩
abbrev S256x40x1024 : Shape := ⟨3, ![256, 40, 1024]⟩
abbrev S256x150x40 : Shape := ⟨3, ![256, 150, 40]⟩
abbrev S_ : Shape := ⟨0, ![]⟩
abbrev S256x150 : Shape := ⟨2, ![256, 150]⟩
abbrev S256x40 : Shape := ⟨2, ![256, 40]⟩
abbrev S256x150x1 : Shape := ⟨3, ![256, 150, 1]⟩
abbrev S256x1x40 : Shape := ⟨3, ![256, 1, 40]⟩
abbrev S256x25 : Shape := ⟨2, ![256, 25]⟩
abbrev S256 : Shape := ⟨1, ![256]⟩
abbrev S256x1 : Shape := ⟨2, ![256, 1]⟩
abbrev S256x50 : Shape := ⟨2, ![256, 50]⟩
abbrev S256x75 : Shape := ⟨2, ![256, 75]⟩
abbrev S256x100 : Shape := ⟨2, ![256, 100]⟩
abbrev S256x125 : Shape := ⟨2, ![256, 125]⟩
abbrev S256x16 : Shape := ⟨2, ![256, 16]⟩
abbrev S256x5 : Shape := ⟨2, ![256, 5]⟩
abbrev S256x21 : Shape := ⟨2, ![256, 21]⟩

abbrev nBuf : Space → Nat
  | .hbm => 222
  | .vmem => 0
  | .smem => 0
  | _ => 0

abbrev hbmTy0_0 (i : Nat) : BufTy := match i % 128 with
  | 0 => ⟨S256x150x1024, .f32⟩
  | 1 => ⟨S1x40x1024, .f32⟩
  | 2 => ⟨S256x40x1024, .f32⟩
  | 3 => ⟨S256x150x40, .f32⟩
  | 4 => ⟨S256x150x1024, .f32⟩
  | 5 => ⟨S_, .f32⟩
  | 6 => ⟨S256x150, .f32⟩
  | 7 => ⟨S256x150, .f32⟩
  | 8 => ⟨S256x40x1024, .f32⟩
  | 9 => ⟨S_, .f32⟩
  | 10 => ⟨S256x40, .f32⟩
  | 11 => ⟨S256x40, .f32⟩
  | 12 => ⟨S256x150x1, .f32⟩
  | 13 => ⟨S256x1x40, .f32⟩
  | 14 => ⟨S256x150x40, .f32⟩
  | 15 => ⟨S256x150x40, .f32⟩
  | 16 => ⟨S256x150x40, .f32⟩
  | 17 => ⟨S_, .f32⟩
  | 18 => ⟨S256x150x40, .f32⟩
  | 19 => ⟨S256x150x40, .f32⟩
  | 20 => ⟨S256x150x40, .f32⟩
  | 21 => ⟨S_, .f32⟩
  | 22 => ⟨S256x150, .f32⟩
  | 23 => ⟨S_, .f32⟩
  | 24 => ⟨S256x150, .f32⟩
  | 25 => ⟨S256x150, .f32⟩
  | 26 => ⟨S256x150x1, .f32⟩
  | 27 => ⟨S256x150x40, .f32⟩
  | 28 => ⟨S256x150x40, .f32⟩
  | 29 => ⟨S256x150x40, .f32⟩
  | 30 => ⟨S_, .f32⟩
  | 31 => ⟨S256x150, .f32⟩
  | 32 => ⟨S256x150x1, .f32⟩
  | 33 => ⟨S256x150x40, .f32⟩
  | 34 => ⟨S256x150x40, .f32⟩
  | 35 => ⟨S256x150x1024, .f32⟩
  | 36 => ⟨S256x150x1024, .f32⟩
  | 37 => ⟨S_, .f32⟩
  | 38 => ⟨S256x150, .f32⟩
  | 39 => ⟨S256x150x1024, .f32⟩
  | 40 => ⟨S_, .f32⟩
  | 41 => ⟨S256x150, .f32⟩
  | 42 => ⟨S256x150, .f32⟩
  | 43 => ⟨S256x150, .f32⟩
  | 44 => ⟨S_, .f32⟩
  | 45 => ⟨S256x150, .f32⟩
  | 46 => ⟨S256x150, .f32⟩
  | 47 => ⟨S256x150, .f32⟩
  | 48 => ⟨S_, .f32⟩
  | 49 => ⟨S256x150, .f32⟩
  | 50 => ⟨S256x150, .f32⟩
  | 51 => ⟨S256x150, .f32⟩
  | 52 => ⟨S256x25, .f32⟩
  | 53 => ⟨S_, .f32⟩
  | 54 => ⟨S256, .f32⟩
  | 55 => ⟨S256x1, .f32⟩
  | 56 => ⟨S256x1, .f32⟩
  | 57 => ⟨S_, .f32⟩
  | 58 => ⟨S256x1, .f32⟩
  | 59 => ⟨S256x1, .f32⟩
  | 60 => ⟨S256x50, .f32⟩
  | 61 => ⟨S_, .f32⟩
  | 62 => ⟨S256, .f32⟩
  | 63 => ⟨S256x1, .f32⟩
  | 64 => ⟨S256x1, .f32⟩
  | 65 => ⟨S_, .f32⟩
  | 66 => ⟨S256x1, .f32⟩
  | 67 => ⟨S256x1, .f32⟩
  | 68 => ⟨S256x75, .f32⟩
  | 69 => ⟨S_, .f32⟩
  | 70 => ⟨S256, .f32⟩
  | 71 => ⟨S256x1, .f32⟩
  | 72 => ⟨S256x1, .f32⟩
  | 73 => ⟨S_, .f32⟩
  | 74 => ⟨S256x1, .f32⟩
  | 75 => ⟨S256x1, .f32⟩
  | 76 => ⟨S256x100, .f32⟩
  | 77 => ⟨S_, .f32⟩
  | 78 => ⟨S256, .f32⟩
  | 79 => ⟨S256x1, .f32⟩
  | 80 => ⟨S256x1, .f32⟩
  | 81 => ⟨S_, .f32⟩
  | 82 => ⟨S256x1, .f32⟩
  | 83 => ⟨S256x1, .f32⟩
  | 84 => ⟨S256x125, .f32⟩
  | 85 => ⟨S_, .f32⟩
  | 86 => ⟨S256, .f32⟩
  | 87 => ⟨S256x1, .f32⟩
  | 88 => ⟨S256x1, .f32⟩
  | 89 => ⟨S_, .f32⟩
  | 90 => ⟨S256x1, .f32⟩
  | 91 => ⟨S256x1, .f32⟩
  | 92 => ⟨S_, .f32⟩
  | 93 => ⟨S256, .f32⟩
  | 94 => ⟨S256x1, .f32⟩
  | 95 => ⟨S256x1, .f32⟩
  | 96 => ⟨S_, .f32⟩
  | 97 => ⟨S256x1, .f32⟩
  | 98 => ⟨S256x1, .f32⟩
  | 99 => ⟨S256x25, .f32⟩
  | 100 => ⟨S_, .f32⟩
  | 101 => ⟨S256, .f32⟩
  | 102 => ⟨S256x1, .f32⟩
  | 103 => ⟨S256x1, .f32⟩
  | 104 => ⟨S_, .f32⟩
  | 105 => ⟨S256x1, .f32⟩
  | 106 => ⟨S256x1, .f32⟩
  | 107 => ⟨S256x50, .f32⟩
  | 108 => ⟨S_, .f32⟩
  | 109 => ⟨S256, .f32⟩
  | 110 => ⟨S256x1, .f32⟩
  | 111 => ⟨S256x1, .f32⟩
  | 112 => ⟨S_, .f32⟩
  | 113 => ⟨S256x1, .f32⟩
  | 114 => ⟨S256x1, .f32⟩
  | 115 => ⟨S256x75, .f32⟩
  | 116 => ⟨S_, .f32⟩
  | 117 => ⟨S256, .f32⟩
  | 118 => ⟨S256x1, .f32⟩
  | 119 => ⟨S256x1, .f32⟩
  | 120 => ⟨S_, .f32⟩
  | 121 => ⟨S256x1, .f32⟩
  | 122 => ⟨S256x1, .f32⟩
  | 123 => ⟨S256x100, .f32⟩
  | 124 => ⟨S_, .f32⟩
  | 125 => ⟨S256, .f32⟩
  | 126 => ⟨S256x1, .f32⟩
  | 127 => ⟨S256x1, .f32⟩
  | _ => ⟨S256x150x1024, .f32⟩

abbrev hbmTy0_1 (i : Nat) : BufTy := match i % 128 with
  | 0 => ⟨S_, .f32⟩
  | 1 => ⟨S256x1, .f32⟩
  | 2 => ⟨S256x1, .f32⟩
  | 3 => ⟨S256x125, .f32⟩
  | 4 => ⟨S_, .f32⟩
  | 5 => ⟨S256, .f32⟩
  | 6 => ⟨S256x1, .f32⟩
  | 7 => ⟨S256x1, .f32⟩
  | 8 => ⟨S_, .f32⟩
  | 9 => ⟨S256x1, .f32⟩
  | 10 => ⟨S256x1, .f32⟩
  | 11 => ⟨S256x25, .f32⟩
  | 12 => ⟨S_, .f32⟩
  | 13 => ⟨S256, .f32⟩
  | 14 => ⟨S256x1, .f32⟩
  | 15 => ⟨S256x1, .f32⟩
  | 16 => ⟨S_, .f32⟩
  | 17 => ⟨S256x1, .f32⟩
  | 18 => ⟨S256x1, .f32⟩
  | 19 => ⟨S256x50, .f32⟩
  | 20 => ⟨S_, .f32⟩
  | 21 => ⟨S256, .f32⟩
  | 22 => ⟨S256x1, .f32⟩
  | 23 => ⟨S256x1, .f32⟩
  | 24 => ⟨S_, .f32⟩
  | 25 => ⟨S256x1, .f32⟩
  | 26 => ⟨S256x1, .f32⟩
  | 27 => ⟨S256x75, .f32⟩
  | 28 => ⟨S_, .f32⟩
  | 29 => ⟨S256, .f32⟩
  | 30 => ⟨S256x1, .f32⟩
  | 31 => ⟨S256x1, .f32⟩
  | 32 => ⟨S_, .f32⟩
  | 33 => ⟨S256x1, .f32⟩
  | 34 => ⟨S256x1, .f32⟩
  | 35 => ⟨S256x100, .f32⟩
  | 36 => ⟨S_, .f32⟩
  | 37 => ⟨S256, .f32⟩
  | 38 => ⟨S256x1, .f32⟩
  | 39 => ⟨S256x1, .f32⟩
  | 40 => ⟨S_, .f32⟩
  | 41 => ⟨S256x1, .f32⟩
  | 42 => ⟨S256x1, .f32⟩
  | 43 => ⟨S256x25, .f32⟩
  | 44 => ⟨S_, .f32⟩
  | 45 => ⟨S256, .f32⟩
  | 46 => ⟨S256x1, .f32⟩
  | 47 => ⟨S256x1, .f32⟩
  | 48 => ⟨S_, .f32⟩
  | 49 => ⟨S256x1, .f32⟩
  | 50 => ⟨S256x1, .f32⟩
  | 51 => ⟨S256x50, .f32⟩
  | 52 => ⟨S_, .f32⟩
  | 53 => ⟨S256, .f32⟩
  | 54 => ⟨S256x1, .f32⟩
  | 55 => ⟨S256x1, .f32⟩
  | 56 => ⟨S_, .f32⟩
  | 57 => ⟨S256x1, .f32⟩
  | 58 => ⟨S256x1, .f32⟩
  | 59 => ⟨S256x75, .f32⟩
  | 60 => ⟨S_, .f32⟩
  | 61 => ⟨S256, .f32⟩
  | 62 => ⟨S256x1, .f32⟩
  | 63 => ⟨S256x1, .f32⟩
  | 64 => ⟨S_, .f32⟩
  | 65 => ⟨S256x1, .f32⟩
  | 66 => ⟨S256x1, .f32⟩
  | 67 => ⟨S256x25, .f32⟩
  | 68 => ⟨S_, .f32⟩
  | 69 => ⟨S256, .f32⟩
  | 70 => ⟨S256x1, .f32⟩
  | 71 => ⟨S256x1, .f32⟩
  | 72 => ⟨S_, .f32⟩
  | 73 => ⟨S256x1, .f32⟩
  | 74 => ⟨S256x1, .f32⟩
  | 75 => ⟨S256x50, .f32⟩
  | 76 => ⟨S_, .f32⟩
  | 77 => ⟨S256, .f32⟩
  | 78 => ⟨S256x1, .f32⟩
  | 79 => ⟨S256x1, .f32⟩
  | 80 => ⟨S_, .f32⟩
  | 81 => ⟨S256x1, .f32⟩
  | 82 => ⟨S256x1, .f32⟩
  | 83 => ⟨S256x25, .f32⟩
  | 84 => ⟨S_, .f32⟩
  | 85 => ⟨S256, .f32⟩
  | 86 => ⟨S256x1, .f32⟩
  | 87 => ⟨S256x1, .f32⟩
  | 88 => ⟨S_, .f32⟩
  | 89 => ⟨S256x1, .f32⟩
  | 90 => ⟨S256x1, .f32⟩
  | 91 => ⟨S256x16, .f32⟩
  | 92 => ⟨S256x5, .f32⟩
  | 93 => ⟨S256x21, .f32⟩
  | _ => ⟨S256x150x1024, .f32⟩

abbrev hbmTy (i : Nat) : BufTy := match i / 128 with
  | 0 => hbmTy0_0 i
  | 1 => hbmTy0_1 i
  | _ => ⟨S256x150x1024, .f32⟩

abbrev bufTy : (tb : Table) → Fin (tcTables nBuf tb) → BufTy
  | .hbm, ⟨i, _⟩ => hbmTy i
  | _, _ => ⟨S256x150x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_20 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_21 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_22 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_23 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_24 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_25 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_26 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_27 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_28 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_29 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_30 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_31 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_32 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_33 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_34 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_35 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_36 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_37 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_38 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_39 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_40 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_41 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_42 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_43 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_44 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_45 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_46 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_47 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩

abbrev nD : Nat := 1
abbrev τ : Topo := Topo.v7x

variable {F : FTy → Type} [FloatOps F]

class Facts₀ : Prop where
  bcast_S1x40x1024_S256x40x1024_0_1_2 : S1x40x1024.BroadcastsInDim S256x40x1024 (![0, 1, 2] : Fin 3 → Fin S256x40x1024.rank)
  reducesTo_S256x150x1024_S256x150_d2 : S256x150x1024.ReducesTo [2] S256x150
  h_S_ : 0 < S_.numel
  reducesTo_S256x40x1024_S256x40_d2 : S256x40x1024.ReducesTo [2] S256x40
  bcast_S256x150_S256x150x1_0_1 : S256x150.BroadcastsInDim S256x150x1 (![0, 1] : Fin 2 → Fin S256x150x1.rank)
  bcast_S256x40_S256x1x40_0_2 : S256x40.BroadcastsInDim S256x1x40 (![0, 2] : Fin 2 → Fin S256x1x40.rank)
  bcast_S256x150x1_S256x150x40_0_1_2 : S256x150x1.BroadcastsInDim S256x150x40 (![0, 1, 2] : Fin 3 → Fin S256x150x40.rank)
  bcast_S256x1x40_S256x150x40_0_1_2 : S256x1x40.BroadcastsInDim S256x150x40 (![0, 1, 2] : Fin 3 → Fin S256x150x40.rank)
  bcast_S_S256x150x40 : S_.BroadcastsInDim S256x150x40 (![] : Fin 0 → Fin S256x150x40.rank)
  reducesTo_S256x150x40_S256x150_d2 : S256x150x40.ReducesTo [2] S256x150
  bcast_S_S256x150 : S_.BroadcastsInDim S256x150 (![] : Fin 0 → Fin S256x150.rank)
  slices_S256x150_S256x25_0_0 : S256x150.Slices ![0, 0] S256x25
  reducesTo_S256x25_S256_d1 : S256x25.ReducesTo [1] S256
  bcast_S256_S256x1_0 : S256.BroadcastsInDim S256x1 (![0] : Fin 1 → Fin S256x1.rank)
  bcast_S_S256x1 : S_.BroadcastsInDim S256x1 (![] : Fin 0 → Fin S256x1.rank)
  slices_S256x150_S256x50_0_0 : S256x150.Slices ![0, 0] S256x50
  reducesTo_S256x50_S256_d1 : S256x50.ReducesTo [1] S256
  slices_S256x150_S256x75_0_0 : S256x150.Slices ![0, 0] S256x75
  reducesTo_S256x75_S256_d1 : S256x75.ReducesTo [1] S256
  slices_S256x150_S256x100_0_0 : S256x150.Slices ![0, 0] S256x100
  reducesTo_S256x100_S256_d1 : S256x100.ReducesTo [1] S256
  slices_S256x150_S256x125_0_0 : S256x150.Slices ![0, 0] S256x125
  reducesTo_S256x125_S256_d1 : S256x125.ReducesTo [1] S256
  reducesTo_S256x150_S256_d1 : S256x150.ReducesTo [1] S256
  slices_S256x150_S256x25_0_25 : S256x150.Slices ![0, 25] S256x25
  slices_S256x150_S256x50_0_25 : S256x150.Slices ![0, 25] S256x50
  slices_S256x150_S256x75_0_25 : S256x150.Slices ![0, 25] S256x75
  slices_S256x150_S256x100_0_25 : S256x150.Slices ![0, 25] S256x100
  slices_S256x150_S256x125_0_25 : S256x150.Slices ![0, 25] S256x125
  slices_S256x150_S256x25_0_50 : S256x150.Slices ![0, 50] S256x25
  slices_S256x150_S256x50_0_50 : S256x150.Slices ![0, 50] S256x50
  slices_S256x150_S256x75_0_50 : S256x150.Slices ![0, 50] S256x75
  slices_S256x150_S256x100_0_50 : S256x150.Slices ![0, 50] S256x100
  slices_S256x150_S256x25_0_75 : S256x150.Slices ![0, 75] S256x25
  slices_S256x150_S256x50_0_75 : S256x150.Slices ![0, 75] S256x50
  slices_S256x150_S256x75_0_75 : S256x150.Slices ![0, 75] S256x75
  slices_S256x150_S256x25_0_100 : S256x150.Slices ![0, 100] S256x25
  slices_S256x150_S256x50_0_100 : S256x150.Slices ![0, 100] S256x50
  slices_S256x150_S256x25_0_125 : S256x150.Slices ![0, 125] S256x25
  concatenates_S256x1_S256x1_S256x1_S256x1_S256x1_S256x1_S256x1_S256x1_S256x1_S256x1_S256x1_S256x1_S256x1_S256x1_S256x1_S256x1_S256x16_d1 : Shape.Concatenates [S256x1, S256x1, S256x1, S256x1, S256x1, S256x1, S256x1, S256x1, S256x1, S256x1, S256x1, S256x1, S256x1, S256x1, S256x1, S256x1] S256x16 1
  concatenates_S256x1_S256x1_S256x1_S256x1_S256x1_S256x5_d1 : Shape.Concatenates [S256x1, S256x1, S256x1, S256x1, S256x1] S256x5 1
  concatenates_S256x16_S256x5_S256x21_d1 : Shape.Concatenates [S256x16, S256x5] S256x21 1
  dot_S256x150x1024_S256x40x1024_S256x150x40_2_2_1_1_0_0_wf : DotDims.WF S256x150x1024 S256x40x1024 S256x150x40 [2] [2] [1] [1] [0] [0]
  dot_S256x150x40_S256x40x1024_S256x150x1024_2_1_1_2_0_0_wf : DotDims.WF S256x150x40 S256x40x1024 S256x150x1024 [2] [1] [1] [2] [0] [0]

variable [Facts₀]

def dot_S256x150x1024_S256x40x1024_S256x150x40_2_2_1_1_0_0 : DotDims S256x150x1024 S256x40x1024 S256x150x40 where
  lhsContracting := [2]
  rhsContracting := [2]
  lhsNonContracting := [1]
  rhsNonContracting := [1]
  lhsBatch := [0]
  rhsBatch := [0]
  wf := dot_S256x150x1024_S256x40x1024_S256x150x40_2_2_1_1_0_0_wf
def dot_S256x150x40_S256x40x1024_S256x150x1024_2_1_1_2_0_0 : DotDims S256x150x40 S256x40x1024 S256x150x1024 where
  lhsContracting := [2]
  rhsContracting := [1]
  lhsNonContracting := [1]
  rhsNonContracting := [2]
  lhsBatch := [0]
  rhsBatch := [0]
  wf := dot_S256x150x40_S256x40x1024_S256x150x1024_2_1_1_2_0_0_wf

class Facts : Prop extends Facts₀ where

variable [Facts]
-- ==== Proof.SegPoolSpec.lean ====
/-
  The mathematics of the certificate, on the extended reals and free of either program.

  A region row `v` (its features indexed by `ι`) is compared with every word row `D w` (words indexed by `κ`) by
  cosine: inner product over the product of Euclidean norms, the product kept away from zero by `ε`. The cosines are
  turned into weights `a` by a softmax over the words; the weighted word mixture `ss = Σ_w a w · D w` is the row's
  attended sentence, and the row's score is its cosine with `ss`, again with `ε` under the quotient. The score is
  scaled by `six`, exponentiated, summed over the regions of a segment, and the logarithm of the sum divided by
  `six`: a log-sum-exp pooling of the segment.

  Two arrangements of the row's score are stated. `rowR` forms the mixture `ss` and takes its inner product with
  `v` and its norm. `rowK` never forms `ss`: the inner product `⟨v, ss⟩` is `Σ_w a w · ⟨v, D w⟩`, and `|ss|²`
  is the quadratic form `Σ_w (Σ_w' a w' · G w' w) · a w` of the Gram matrix `G w' w = ⟨D w', D w⟩`, clamped at zero
  before the root. The pooled results differ by one more clamp: `outK` takes the logarithm of `max (sum) c30`.
-/
import Idealize.ShloMosaic.PureOps.Ideal

noncomputable section

namespace SegPool

open Idealize.ShloMosaic

variable {ι κ ρ : Type} [Fintype ι] [Fintype κ] [Fintype ρ]

/-- The Euclidean norm of a row: the root of the sum of its squares. -/
def norm (v : ι → EReal) : EReal := Ideal.sqrt (∑ d, v d * v d)

/-- The cosine of a row with word `w`, from the row's inner products `dots` with the words, the row's norm `nv`
    and the words' norms `nw`; the product of norms is kept at `ε` or above. -/
def score (ε nv : EReal) (nw dots : κ → EReal) (w : κ) : EReal :=
  Ideal.div (dots w) (max (nv * nw w) ε)

/-- The largest of finitely many values, taken from `-∞` and compared with `-∞` once more. -/
def peak (f : κ → EReal) : EReal := max ⊥ (Finset.univ.fold max ⊥ f)

/-- The softmax over the words, the peak subtracted under the exponential. -/
def softmax (f : κ → EReal) (w : κ) : EReal :=
  Ideal.div (Ideal.exp (f w - peak f)) (∑ w', Ideal.exp (f w' - peak f))

/-- The attention weights of a row: the softmax of its cosines with the words. -/
def attn (ε nv : EReal) (nw dots : κ → EReal) : κ → EReal := softmax (score ε nv nw dots)

/-- The exponentiated, scaled score of a row, from the inner product `d2` of the row with its attended sentence and
    the two norms. -/
def expScore (six ε nv ns d2 : EReal) : EReal := Ideal.exp (Ideal.div d2 (max (nv * ns) ε) * six)

/-! ### The arrangement that forms the attended sentence -/

/-- The row's inner products with the words, the word matrix given row by row. -/
def dotsR (v : ι → EReal) (D : κ → ι → EReal) (w : κ) : EReal := ∑ d, v d * D w d

/-- The row's attention weights. -/
def attnR (ε : EReal) (v : ι → EReal) (D : κ → ι → EReal) : κ → EReal :=
  attn ε (norm v) (fun w => norm (D w)) (dotsR v D)

/-- The attended sentence: the words mixed by the attention weights. -/
def mixR (ε : EReal) (v : ι → EReal) (D : κ → ι → EReal) (d : ι) : EReal := ∑ w, attnR ε v D w * D w d

/-- The row's exponentiated score: cosine of the row with its attended sentence. -/
def rowR (six ε : EReal) (v : ι → EReal) (D : κ → ι → EReal) : EReal :=
  expScore six ε (norm v) (norm (mixR ε v D)) (∑ d, v d * mixR ε v D d)

/-! ### The arrangement over the Gram matrix -/

/-- The row's inner products with the words, the word matrix given transposed. -/
def dotsK (v : ι → EReal) (Dt : ι → κ → EReal) (w : κ) : EReal := ∑ d, v d * Dt d w

/-- The row's attention weights, the words' norms given. -/
def attnK (ε : EReal) (v : ι → EReal) (Dt : ι → κ → EReal) (nw : κ → EReal) : κ → EReal :=
  attn ε (norm v) nw (dotsK v Dt)

/-- The squared norm of the attended sentence as the Gram matrix's quadratic form at the weights, clamped at zero. -/
def mixSqK (ε : EReal) (v : ι → EReal) (Dt : ι → κ → EReal) (G : κ → κ → EReal) (nw : κ → EReal) : EReal :=
  max (∑ w, (∑ w', attnK ε v Dt nw w' * G w' w) * attnK ε v Dt nw w) 0

/-- The row's exponentiated score in this arrangement. -/
def rowK (six ε : EReal) (v : ι → EReal) (Dt : ι → κ → EReal) (G : κ → κ → EReal) (nw : κ → EReal) : EReal :=
  expScore six ε (norm v) (Ideal.sqrt (mixSqK ε v Dt G nw)) (∑ w, attnK ε v Dt nw w * dotsK v Dt w)

/-! ### Pooling a segment -/

/-- The sum of the rows' exponentiated scores over the regions of a segment. -/
def pool (seg : ρ → Prop) [DecidablePred seg] (E : ρ → EReal) : EReal := ∑ r, if seg r then E r else 0

/-- The pooled score: logarithm of the segment's sum, over `six`. -/
def outR (six : EReal) (seg : ρ → Prop) [DecidablePred seg] (E : ρ → EReal) : EReal :=
  Ideal.div (Ideal.log (pool seg E)) six

/-- The pooled score with the sum kept at `c30` or above under the logarithm. -/
def outK (six c30 : EReal) (seg : ρ → Prop) [DecidablePred seg] (E : ρ → EReal) : EReal :=
  Ideal.div (Ideal.log (max (pool seg E) c30)) six

/-! ### The twenty-one segments of 150 regions: unions of consecutive 25-region units `i ≤ j`, ordered by `(i, j)` -/

/-- First region of segment `s`. -/
def segLo : Fin 21 → ℕ
  | ⟨0, _⟩ => 0 | ⟨1, _⟩ => 0 | ⟨2, _⟩ => 0 | ⟨3, _⟩ => 0 | ⟨4, _⟩ => 0 | ⟨5, _⟩ => 0
  | ⟨6, _⟩ => 25 | ⟨7, _⟩ => 25 | ⟨8, _⟩ => 25 | ⟨9, _⟩ => 25 | ⟨10, _⟩ => 25
  | ⟨11, _⟩ => 50 | ⟨12, _⟩ => 50 | ⟨13, _⟩ => 50 | ⟨14, _⟩ => 50
  | ⟨15, _⟩ => 75 | ⟨16, _⟩ => 75 | ⟨17, _⟩ => 75
  | ⟨18, _⟩ => 100 | ⟨19, _⟩ => 100
  | ⟨_ + 20, _⟩ => 125

/-- One past the last region of segment `s`. -/
def segHi : Fin 21 → ℕ
  | ⟨0, _⟩ => 25 | ⟨1, _⟩ => 50 | ⟨2, _⟩ => 75 | ⟨3, _⟩ => 100 | ⟨4, _⟩ => 125 | ⟨5, _⟩ => 150
  | ⟨6, _⟩ => 50 | ⟨7, _⟩ => 75 | ⟨8, _⟩ => 100 | ⟨9, _⟩ => 125 | ⟨10, _⟩ => 150
  | ⟨11, _⟩ => 75 | ⟨12, _⟩ => 100 | ⟨13, _⟩ => 125 | ⟨14, _⟩ => 150
  | ⟨15, _⟩ => 100 | ⟨16, _⟩ => 125 | ⟨17, _⟩ => 150
  | ⟨18, _⟩ => 125 | ⟨19, _⟩ => 150
  | ⟨_ + 20, _⟩ => 150

/-- Region `r` belongs to segment `s`. -/
def inSeg (s : Fin 21) (r : Fin 150) : Prop := segLo s ≤ r.val ∧ r.val < segHi s

instance (s : Fin 21) : DecidablePred (inSeg s) := fun r => by unfold inSeg; infer_instance

end SegPool

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.LibColumns.lean ====
/-
  One-column and one-row arrays read at an entry.  A vector of length n viewed as an n×1 column — by a shape cast
  or by a broadcast along a new last axis — reads its entry r at (r, 0), so the two views are one array; viewed
  as a 1×n row by a broadcast along a new first axis it reads its entry q at (0, q).  A column spread over k
  columns reads the column's entry r at every (r, q); a row spread over n rows reads the row's entry q at every
  (r, q).
-/
import Idealize.ShloMosaic.Lib.ValueIdx
import Idealize.ShloMosaic.Lib.ValueLayout
import Idealize.ShloMosaic.Lib.Pipeline.Value

noncomputable section

namespace Cert.Columns

open Idealize.ShloMosaic Idealize.ShloMosaic.ValueIdx

variable {α : Type}

/-- A vector cast to a column reads entry r at (r, 0). -/
theorem shapeCast_col_apply {n : ℕ} (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

/-- A vector broadcast to a column (its axis the column's first) reads entry r at (r, 0). -/
theorem bcast_col_apply {n : ℕ} (v : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ (![0] : Fin 1 → Fin 2) h v (ix2 r u) = v (ix1 r) := by
  refine broadcastInDim_apply (![0] : Fin 1 → Fin 2) h v (ix2 r u) (ix1 r) fun a => ?_
  match a with
  | ⟨0, _⟩ =>
    show r.val = if n = 1 then 0 else r.val
    split
    · have := r.isLt; omega
    · rfl

/-- The two column views of a vector are one array. -/
theorem shapeCast_col_eq_bcast {n : ℕ} (v : (⟨1, ![n]⟩ : Shape).Idx → α) (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ v h = broadcastInDim ⟨2, ![n, 1]⟩ (![0] : Fin 1 → Fin 2) h' v := by
  funext j
  obtain ⟨r, u, rfl⟩ : ∃ (r : Fin n) (u : Fin 1), j = ix2 r u := ⟨j 0, j 1, eq_ix2 j⟩
  rw [shapeCast_col_apply, bcast_col_apply]

/-- A vector broadcast to a row (its axis the row's second) reads entry q at (0, q). -/
theorem bcast_row_apply {n : ℕ} (v : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ (![1] : Fin 1 → Fin 2) h v (ix2 u q) = v (ix1 q) := by
  refine broadcastInDim_apply (![1] : Fin 1 → Fin 2) h v (ix2 u q) (ix1 q) fun a => ?_
  match a with
  | ⟨0, _⟩ =>
    show q.val = if n = 1 then 0 else q.val
    split
    · have := q.isLt; omega
    · rfl

/-- A column spread over k columns reads the column's entry r at (r, q). -/
theorem spread_col_apply {n k : ℕ} (v : (⟨2, ![n, 1]⟩ : Shape).Idx → α)
    (h : (⟨2, ![n, 1]⟩ : Shape).BroadcastsInDim ⟨2, ![n, k]⟩ (![0, 1] : Fin 2 → Fin 2)) (r : Fin n) (q : Fin k) :
    broadcastInDim ⟨2, ![n, k]⟩ (![0, 1] : Fin 2 → Fin 2) h v (ix2 r q) = v (ix2 r (0 : Fin 1)) := by
  refine broadcastInDim_apply (![0, 1] : Fin 2 → Fin 2) h v (ix2 r q) (ix2 r (0 : Fin 1)) fun a => ?_
  match a with
  | ⟨0, _⟩ =>
    show r.val = if n = 1 then 0 else r.val
    split
    · have := r.isLt; omega
    · rfl
  | ⟨1, _⟩ => rfl

/-- A row spread over n rows reads the row's entry q at (r, q). -/
theorem spread_row_apply {n k : ℕ} (v : (⟨2, ![1, k]⟩ : Shape).Idx → α)
    (h : (⟨2, ![1, k]⟩ : Shape).BroadcastsInDim ⟨2, ![n, k]⟩ (![0, 1] : Fin 2 → Fin 2)) (r : Fin n) (q : Fin k) :
    broadcastInDim ⟨2, ![n, k]⟩ (![0, 1] : Fin 2 → Fin 2) h v (ix2 r q) = v (ix2 (0 : Fin 1) q) := by
  refine broadcastInDim_apply (![0, 1] : Fin 2 → Fin 2) h v (ix2 r q) (ix2 (0 : Fin 1) q) fun a => ?_
  match a with
  | ⟨0, _⟩ => rfl
  | ⟨1, _⟩ =>
    show q.val = if k = 1 then 0 else q.val
    split
    · have := q.isLt; omega
    · rfl

end Cert.Columns

end
-- ==== Proof.Consts.lean ====
/-
  The float constants both programs spell, as the extended reals their words denote: zero, minus infinity, six, the
  guard `ε` under the two cosine quotients (the single-precision neighbour of 10⁻⁶, a positive real), and the guard
  under the logarithm, which the certificate's table of named constants reads as the rational 10⁻³⁰.
-/
import proofs.«101303_j84061099917852_2_alg».proof.KernelIdeal
import Idealize.ShloMosaic.PureOps.Ideal
import Idealize.ShloMosaic.PureOps.IdealRules

noncomputable section

namespace Cert.Consts

open Idealize.ShloMosaic

/-- The scale of the log-sum-exp pooling, as both programs spell it. -/
abbrev six : EReal := Ideal.ofBits .f32 0x40C00000#32

/-- The guard under the cosine quotients, as both programs spell it. -/
abbrev eps : EReal := Ideal.ofBits .f32 0x358637BD#32

/-- The guard under the logarithm: the rational the table gives the name. -/
abbrev c30 : EReal := ((1 / 1000000000000000000000000000000 : ℝ) : EReal)

/-- The word of `-∞`. -/
theorem ofBits_ninf : Ideal.ofBits .f32 0xFF800000#32 = ⊥ := by
  simp [Ideal.ofBits, Ideal.ieee]

/-- The zero word. -/
theorem ofBits_zero : Ideal.ofBits .f32 0x00000000#32 = 0 := by
  simp [Ideal.ofBits, Ideal.ieee]

/-- `6.0` denotes the real six. -/
theorem six_eq : six = ((6 : ℝ) : EReal) := by
  simp [six, Ideal.ofBits, Ideal.ieee, -EReal.coe_mul] <;> norm_num

/-- The guard under the quotients denotes a positive real. -/
theorem eps_pos : ∃ e : ℝ, 0 < e ∧ eps = (e : EReal) := by
  refine ⟨(8796093 : ℝ) * (2 : ℝ) ^ (-43 : ℤ), by positivity, ?_⟩
  simp [eps, Ideal.ofBits, Ideal.ieee, -EReal.coe_mul] <;> norm_num

/-- The kernel's named guard under the logarithm is the rational 10⁻³⁰ the table gives it. -/
theorem named_c30 :
    Named.named (F := Ideal) Cert.KernelIdeal.κ "inv_1000000000000000000000000000000" (φ := .f32) 0x0DA24260#32 = c30 :=
  IdealRules.named_const.ideal_named_scalar _ _ _ _ rfl

end Cert.Consts

end
-- ==== Proof.KernelRow.lean ====
/-
  What the kernel's body computes for one block, read entry by entry at the ideal values.

  A block holds 16 batch entries of 150 regions with 1024 features each; the body flattens it to 2400 rows, row
  `bl · 150 + r` being region `r` of entry `bl`. For each row it forms the inner products with the 40 words (a
  product with the transposed word matrix), the row's norm, the cosines and their softmax, then — without ever forming
  the attended sentence — its inner product with the row as the weights' sum against those inner products, and its
  squared norm as the Gram matrix's quadratic form at the weights. The exponentiated scores, folded back to 16 × 150,
  are multiplied by the 150 × 21 indicator matrix of the segments: that product is the segment sum.
-/
import proofs.«101303_j84061099917852_2_alg».proof.Proof.Gen.KernelIdeal.Skeleton
import proofs.«101303_j84061099917852_2_alg».proof.Proof.SegPoolSpec
import proofs.«101303_j84061099917852_2_alg».proof.Proof.LibDense
import proofs.«101303_j84061099917852_2_alg».proof.Proof.LibColumns
import proofs.«101303_j84061099917852_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-! ## Three reads, generic in the extents -/

/-- The sum along each row of an a×b matrix, read at row `p`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ c : Fin b, src (ix2 p c) := by
  refine (Ideal.multiReduction_add_single src 0x00000000#32 h hφ hacc (ix1 p)).trans ?_
  refine Finset.sum_congr rfl fun c _ => congrArg src (funext fun ax => Fin.ext ?_)
  match ax with
  | ⟨0, _⟩ => rfl
  | ⟨1, _⟩ => rfl

/-- The maximum along each row of an a×b matrix taken from `-∞`, read at row `p`: the fold of `max` over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun c => src (ix2 p c)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [Cert.Consts.ofBits_ninf]
  have e : (src ∘ h.lift (ix1 p)) = fun c : Fin b => src (ix2 p c) :=
    funext fun c => congrArg src (funext fun ax => Fin.ext (by
      match ax with
      | ⟨0, _⟩ => rfl
      | ⟨1, _⟩ => rfl))
  exact congrArg (fun g => (Finset.univ : Finset (Fin b)).fold max ⊥ g) e

/-- A column spread over `b` columns reads the column's entry `p` at every `(p, c)`. -/
theorem spreadCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The flattened block -/

/-- Row `bl · 150 + r` of the block's 2400 rows: region `r` of the block's batch entry `bl`. -/
def rowOf (bl : Fin 16) (r : Fin 150) : Fin 2400 :=
  ⟨bl.val * 150 + r.val, by have := bl.isLt; have := r.isLt; omega⟩

/-- The flattened block at row `bl · 150 + r` and feature `d` is the block at `(bl, r, d)`. -/
theorem flat_apply (v0 : FVec Ideal S16x150x1024 .f32) (bl : Fin 16) (r : Fin 150) (d : Fin 1024) :
    k0_pay2 (F := Ideal) v0 (ix2 (rowOf bl r) d) = v0 (ix3 bl r d) := by
  unfold k0_pay2
  refine shapeCast_apply v0 _ (ix2 (rowOf bl r) d) (ix3 bl r d) ?_
  rw [Shape.rowMajor_val_three, Shape.rowMajor_val_two]
  rfl

/-! ## The row's quantities, at a row `p` of the flattened block -/

section Row
variable (v0 : FVec Ideal S16x150x1024 .f32) (v1 : FVec Ideal S1024x40 .bf16) (v10 : FVec Ideal S1x40 .f32)
  (v32 : FVec Ideal S40x40 .f32) (p : Fin 2400)

/-- Row `p` of the flattened block. -/
abbrev row : Fin 1024 → EReal := fun d => k0_pay2 (F := Ideal) v0 (ix2 p d)

/-- The transposed word matrix as the body loads it. -/
abbrev wordsT : Fin 1024 → Fin 40 → EReal := fun d w => v1 (ix2 d w)

/-- The words' norms as the body loads them. -/
abbrev wordNorms : Fin 40 → EReal := fun w => v10 (ix2 (0 : Fin 1) w)

/-- The Gram matrix as the body loads it. -/
abbrev gram : Fin 40 → Fin 40 → EReal := fun w' w => v32 (ix2 w' w)

/-- The row's inner product with word `w`. -/
theorem dots_apply (w : Fin 40) : k0_pay3 (F := Ideal) v0 v1 (ix2 p w) = SegPool.dotsK (row v0 p) (wordsT v1) w := by
  unfold k0_pay3
  refine (Cert.Dense.matmul_plain_apply dot_S2400x1024_S1024x40_S2400x40_1_0_0_1_n_n_wf
    (truncf .bf16 (k0_pay2 (F := Ideal) v0) bitsLt_bf16_f32) (shapeCast S1024x40 v1 shapeCasts_S1024x40_S1024x40) p w).trans ?_
  unfold SegPool.dotsK
  refine Finset.sum_congr rfl fun d _ => ?_
  rw [shapeCast_self]
  rfl

/-- The row's norm. -/
theorem rowNorm_apply (u : Fin 1) : k0_pay4 (F := Ideal) v0 (ix2 p u) = SegPool.norm (row v0 p) := by
  unfold k0_pay4
  show Ideal.sqrt (shapeCast S2400x1 (multiReduction .add [1] S2400 (mulf (k0_pay2 (F := Ideal) v0) (k0_pay2 (F := Ideal) v0)) 0x00000000#32
    reduces_S2400x1024_S2400 (.inl rfl) rfl) shapeCasts_S2400_S2400x1 (ix2 p u)) = _
  rw [Cert.Columns.shapeCast_col_apply]
  refine congrArg Ideal.sqrt ((rowSum_apply _ reduces_S2400x1024_S2400 (.inl rfl) rfl p).trans ?_)
  rfl

end Row

/-! ## The attention weights: the printed payload in named stages -/

section Attention
variable (v0 : FVec Ideal S16x150x1024 .f32) (v1 : FVec Ideal S1024x40 .bf16) (v10 : FVec Ideal S1x40 .f32)
  (v32 : FVec Ideal S40x40 .f32) (p : Fin 2400)

/-- The cosines of every row with every word. -/
def cosines : FVec Ideal S2400x40 .f32 :=
  divf (k0_pay3 (F := Ideal) v0 v1) (maximumf (mulf (broadcastTo S2400x40 (k0_pay4 (F := Ideal) v0) broadcasts_S2400x1_S2400x40)
    (broadcastTo S2400x40 (shapeCast S1x40 v10 shapeCasts_S1x40_S1x40) broadcasts_S1x40_S2400x40))
    (broadcast S2400x40 (Scalar.ofBits .f32 0x358637BD#32)))

/-- Each row's largest cosine, as a column. -/
def peaks : FVec Ideal S2400x1 .f32 :=
  shapeCast S2400x1 (maximumf (broadcast S2400 (Scalar.ofBits .f32 0xFF800000#32))
    (multiReduction .maximumf [1] S2400 (cosines v0 v1 v10) 0xFF800000#32 reduces_S2400x40_S2400 (.inl rfl) rfl))
    shapeCasts_S2400_S2400x1

/-- The exponentials of the cosines less the row's peak. -/
def exps : FVec Ideal S2400x40 .f32 :=
  exp (subf (cosines v0 v1 v10) (broadcastTo S2400x40 (peaks v0 v1 v10) broadcasts_S2400x1_S2400x40))

/-- Each row's sum of those exponentials, as a column. -/
def expSums : FVec Ideal S2400x1 .f32 :=
  shapeCast S2400x1 (multiReduction .add [1] S2400 (exps v0 v1 v10) 0x00000000#32 reduces_S2400x40_S2400 (.inl rfl) rfl)
    shapeCasts_S2400_S2400x1

/-- The printed attention payload is the quotient of the last two stages. -/
theorem pay5_eq : k0_pay5 (F := Ideal) v0 v1 v10
    = divf (exps v0 v1 v10) (broadcastTo S2400x40 (expSums v0 v1 v10) broadcasts_S2400x1_S2400x40) := rfl

/-- A cosine at `(p, w)`. -/
theorem cosines_apply (w : Fin 40) : cosines v0 v1 v10 (ix2 p w)
    = SegPool.score Cert.Consts.eps (SegPool.norm (row v0 p)) (wordNorms v10) (SegPool.dotsK (row v0 p) (wordsT v1)) w := by
  show Ideal.div (k0_pay3 (F := Ideal) v0 v1 (ix2 p w))
    (max (broadcastTo S2400x40 (k0_pay4 (F := Ideal) v0) broadcasts_S2400x1_S2400x40 (ix2 p w)
      * broadcastTo S2400x40 (shapeCast S1x40 v10 shapeCasts_S1x40_S1x40) broadcasts_S1x40_S2400x40 (ix2 p w))
      (Ideal.ofBits .f32 0x358637BD#32)) = _
  rw [dots_apply, spreadCol_apply, rowNorm_apply, broadcastTo_1b_ab_apply, shapeCast_self]
  rfl

/-- A row's peak. -/
theorem peaks_apply (u : Fin 1) : peaks v0 v1 v10 (ix2 p u) = SegPool.peak (fun w => cosines v0 v1 v10 (ix2 p w)) := by
  unfold peaks
  rw [Cert.Columns.shapeCast_col_apply]
  show max (Ideal.ofBits .f32 0xFF800000#32) (multiReduction .maximumf [1] S2400 (cosines v0 v1 v10) 0xFF800000#32
    reduces_S2400x40_S2400 (.inl rfl) rfl (ix1 p)) = _
  rw [Cert.Consts.ofBits_ninf]
  exact congrArg (max ⊥) (rowMax_apply (cosines v0 v1 v10) reduces_S2400x40_S2400 (.inl rfl) rfl p)

/-- An attention weight at `(p, w)`. -/
theorem attn_apply (w : Fin 40) : k0_pay5 (F := Ideal) v0 v1 v10 (ix2 p w)
    = SegPool.attnK Cert.Consts.eps (row v0 p) (wordsT v1) (wordNorms v10) w := by
  rw [pay5_eq]
  show Ideal.div (Ideal.exp (cosines v0 v1 v10 (ix2 p w)
      - broadcastTo S2400x40 (peaks v0 v1 v10) broadcasts_S2400x1_S2400x40 (ix2 p w)))
    (broadcastTo S2400x40 (expSums v0 v1 v10) broadcasts_S2400x1_S2400x40 (ix2 p w)) = _
  rw [spreadCol_apply, spreadCol_apply, peaks_apply]
  unfold expSums
  rw [Cert.Columns.shapeCast_col_apply]
  have hs : multiReduction .add [1] S2400 (exps v0 v1 v10) 0x00000000#32 reduces_S2400x40_S2400 (.inl rfl) rfl (ix1 p)
      = ∑ w' : Fin 40, Ideal.exp (cosines v0 v1 v10 (ix2 p w') - SegPool.peak (fun w => cosines v0 v1 v10 (ix2 p w))) := by
    refine (rowSum_apply (exps v0 v1 v10) reduces_S2400x40_S2400 (.inl rfl) rfl p).trans ?_
    refine Finset.sum_congr rfl fun w' _ => ?_
    show Ideal.exp (cosines v0 v1 v10 (ix2 p w')
      - broadcastTo S2400x40 (peaks v0 v1 v10) broadcasts_S2400x1_S2400x40 (ix2 p w')) = _
    rw [spreadCol_apply, peaks_apply]
  rw [hs]
  have hc : (fun w => cosines v0 v1 v10 (ix2 p w))
      = SegPool.score Cert.Consts.eps (SegPool.norm (row v0 p)) (wordNorms v10) (SegPool.dotsK (row v0 p) (wordsT v1)) :=
    funext fun w => cosines_apply v0 v1 v10 p w
  simp only [cosines_apply]
  rfl

/-- The row's inner product with its attended sentence, as the weights' sum against the inner products with the words. -/
theorem mixDot_apply (u : Fin 1) : k0_pay6 (F := Ideal) v0 v1 v10 (ix2 p u)
    = ∑ w, SegPool.attnK Cert.Consts.eps (row v0 p) (wordsT v1) (wordNorms v10) w * SegPool.dotsK (row v0 p) (wordsT v1) w := by
  unfold k0_pay6
  rw [Cert.Columns.shapeCast_col_apply]
  refine (rowSum_apply _ reduces_S2400x40_S2400 (.inl rfl) rfl p).trans ?_
  refine Finset.sum_congr rfl fun w _ => ?_
  show k0_pay5 (F := Ideal) v0 v1 v10 (ix2 p w) * k0_pay3 (F := Ideal) v0 v1 (ix2 p w) = _
  rw [attn_apply, dots_apply]

/-- The squared norm of the row's attended sentence, as the Gram matrix's quadratic form at the weights, clamped at zero. -/
theorem mixSq_apply (u : Fin 1) : k0_pay7 (F := Ideal) v0 v1 v10 v32 (ix2 p u)
    = SegPool.mixSqK Cert.Consts.eps (row v0 p) (wordsT v1) (gram v32) (wordNorms v10) := by
  unfold k0_pay7
  show max (shapeCast S2400x1 (multiReduction .add [1] S2400 (mulf (matmul dot_S2400x40_S40x40_S2400x40_1_0_0_1_n_n none
      (k0_pay5 (F := Ideal) v0 v1 v10) (shapeCast S40x40 v32 shapeCasts_S40x40_S40x40) (constant S2400x40 .f32 0x00000000#32))
      (k0_pay5 (F := Ideal) v0 v1 v10)) 0x00000000#32 reduces_S2400x40_S2400 (.inl rfl) rfl) shapeCasts_S2400_S2400x1 (ix2 p u))
    (Ideal.ofBits .f32 0x00000000#32) = _
  rw [Cert.Columns.shapeCast_col_apply, Cert.Consts.ofBits_zero]
  unfold SegPool.mixSqK
  refine congrArg (max · 0) ((rowSum_apply _ reduces_S2400x40_S2400 (.inl rfl) rfl p).trans ?_)
  refine Finset.sum_congr rfl fun w _ => ?_
  show matmul dot_S2400x40_S40x40_S2400x40_1_0_0_1_n_n none (k0_pay5 (F := Ideal) v0 v1 v10)
      (shapeCast S40x40 v32 shapeCasts_S40x40_S40x40) (constant S2400x40 .f32 0x00000000#32) (ix2 p w)
    * k0_pay5 (F := Ideal) v0 v1 v10 (ix2 p w) = _
  rw [attn_apply]
  refine congrArg (· * _) ((Cert.Dense.matmul_plain_apply dot_S2400x40_S40x40_S2400x40_1_0_0_1_n_n_wf
    (k0_pay5 (F := Ideal) v0 v1 v10) (shapeCast S40x40 v32 shapeCasts_S40x40_S40x40) p w).trans ?_)
  refine Finset.sum_congr rfl fun w' _ => ?_
  rw [attn_apply, shapeCast_self]

end Attention

/-! ## Pooling the segments -/

section Pooling
variable (v9 v31 v39 : FVec Ideal S2400x1 .f32) (v49 : FVec Ideal S150x21 .f32)

/-- The rows' exponentiated scores, folded back to 16 entries of 150 regions. -/
def scores : FVec Ideal S16x150 .f32 :=
  shapeCast S16x150 (exp (mulf (divf v31 (maximumf (mulf v9 (sqrt v39)) (broadcast S2400x1 (Scalar.ofBits .f32 0x358637BD#32))))
    (broadcast S2400x1 (Scalar.ofBits .f32 0x40C00000#32)))) shapeCasts_S2400x1_S16x150

/-- The printed pooling payload over the folded scores. -/
theorem pay1_eq : k0_pay1 (F := Ideal) v9 v31 v39 v49
    = divf (log (maximumf (matmul dot_S16x150_S150x21_S16x21_1_0_0_1_n_n none (scores v9 v31 v39) v49
        (constant S16x21 .f32 0x00000000#32))
      (broadcast S16x21 (Named.named κ "inv_1000000000000000000000000000000" 0x0DA24260#32))))
      (broadcast S16x21 (Scalar.ofBits .f32 0x40C00000#32)) := rfl

/-- The folded score of region `r` of entry `bl` is the exponentiated score of row `bl · 150 + r`. -/
theorem scores_apply (bl : Fin 16) (r : Fin 150) : scores v9 v31 v39 (ix2 bl r)
    = SegPool.expScore Cert.Consts.six Cert.Consts.eps (v9 (ix2 (rowOf bl r) (0 : Fin 1)))
        (Ideal.sqrt (v39 (ix2 (rowOf bl r) (0 : Fin 1)))) (v31 (ix2 (rowOf bl r) (0 : Fin 1))) := by
  unfold scores
  refine (shapeCast_apply _ shapeCasts_S2400x1_S16x150 (ix2 bl r) (ix2 (rowOf bl r) (0 : Fin 1)) ?_).trans ?_
  · rw [Shape.rowMajor_val_two, Shape.rowMajor_val_two]
    show (bl.val * 150 + r.val) * 1 + 0 = bl.val * 150 + r.val
    omega
  · rfl

/-- The pooled score of segment `s` for entry `bl`, the fifth operand being the segments' indicator matrix. -/
theorem pooled_apply (bl : Fin 16) (s : Fin 21)
    (hmask : ∀ r : Fin 150, v49 (ix2 r s) = if SegPool.inSeg s r then 1 else 0) :
    k0_pay1 (F := Ideal) v9 v31 v39 v49 (ix2 bl s)
      = SegPool.outK Cert.Consts.six Cert.Consts.c30 (SegPool.inSeg s) (fun r =>
          SegPool.expScore Cert.Consts.six Cert.Consts.eps (v9 (ix2 (rowOf bl r) (0 : Fin 1)))
            (Ideal.sqrt (v39 (ix2 (rowOf bl r) (0 : Fin 1)))) (v31 (ix2 (rowOf bl r) (0 : Fin 1)))) := by
  rw [pay1_eq]
  show Ideal.div (Ideal.log (max (matmul dot_S16x150_S150x21_S16x21_1_0_0_1_n_n none (scores v9 v31 v39) v49
      (constant S16x21 .f32 0x00000000#32) (ix2 bl s))
    (Named.named (F := Ideal) κ "inv_1000000000000000000000000000000" (φ := .f32) 0x0DA24260#32)))
    (Ideal.ofBits .f32 0x40C00000#32) = _
  rw [Cert.Consts.named_c30]
  unfold SegPool.outK SegPool.pool
  refine congrArg (fun x => Ideal.div (Ideal.log (max x Cert.Consts.c30)) Cert.Consts.six) ?_
  refine (Cert.Dense.matmul_plain_apply dot_S16x150_S150x21_S16x21_1_0_0_1_n_n_wf (scores v9 v31 v39) v49 bl s).trans ?_
  refine Finset.sum_congr rfl fun r _ => ?_
  rw [hmask r, scores_apply]
  simp only [mul_ite, mul_one, mul_zero]

end Pooling

/-! ## One block entry -/

/-- What the body stores at `(bl, s)`: the pooled score of segment `s` over entry `bl`'s rows, each row's score in
    the arrangement over the Gram matrix. -/
theorem block_apply (x0 : FVec Ideal S16x150x1024 .f32) (x1 : FVec Ideal S1024x40 .bf16) (x2 : FVec Ideal S40x40 .f32)
    (x3 : FVec Ideal S1x40 .f32) (x4 : FVec Ideal S150x21 .f32) (bl : Fin 16) (s : Fin 21)
    (hmask : ∀ r : Fin 150, x4 (ix2 r s) = if SegPool.inSeg s r then 1 else 0) :
    k0_pay1 (F := Ideal) (k0_pay4 (F := Ideal) x0) (k0_pay6 (F := Ideal) x0 x1 x3) (k0_pay7 (F := Ideal) x0 x1 x3 x2) x4 (ix2 bl s)
      = SegPool.outK Cert.Consts.six Cert.Consts.c30 (SegPool.inSeg s) (fun r =>
          SegPool.rowK Cert.Consts.six Cert.Consts.eps (fun d => x0 (ix3 bl r d)) (wordsT x1) (gram x2) (wordNorms x3)) := by
  rw [pooled_apply _ _ _ _ bl s hmask]
  refine congrArg _ (funext fun r => ?_)
  have hrow : row x0 (rowOf bl r) = fun d => x0 (ix3 bl r d) := funext fun d => flat_apply x0 bl r d
  rw [rowNorm_apply, mixDot_apply, mixSq_apply, hrow]
  rfl

end Cert.KernelIdeal.RowValue

end
-- ==== Proof.KernelWindows.lean ====
/-
  The arrays the kernel's region finds in its four windows that do not move with the grid, as the host operations
  before the region leave them, read entry by entry at the ideal values.

  The word matrix `W` is the second argument with its leading unit axis dropped. The region is handed its transpose
  (narrowed to half precision, which changes nothing here), the words' norms as a one-row matrix, the Gram matrix
  `W · Wᵀ`, and a literal 150 × 21 matrix.
-/
import proofs.«101303_j84061099917852_2_alg».proof.Proof.Gen.KernelIdeal.Frame
import proofs.«101303_j84061099917852_2_alg».proof.Proof.SegPoolSpec
import proofs.«101303_j84061099917852_2_alg».proof.Proof.LibDense
import proofs.«101303_j84061099917852_2_alg».proof.Proof.LibColumns
import proofs.«101303_j84061099917852_2_alg».proof.Proof.Consts
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Windows

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (c : Dev nD)

/-- The word matrix: the second argument, its leading unit axis dropped. -/
def W : FVec Ideal S40x1024 .f32 :=
  shapeCast S40x1024 (m ((c : Thread nD τ).loc main_arg1)) shapeCasts_S1x40x1024_S40x1024

/-- The word matrix at `(w, d)` is the argument at `(0, w, d)`. -/
theorem W_apply (w : Fin 40) (d : Fin 1024) :
    W m c (ix2 w d) = m ((c : Thread nD τ).loc main_arg1) (ix3 (0 : Fin 1) w d) :=
  shapeCast_1ab_ab_apply _ shapeCasts_S1x40x1024_S40x1024 w d

/-- Window 1's array: the transposed word matrix. -/
theorem V_wordsT : (V m c main_v2 : S1024x40.Idx → EReal)
    = transpose S1024x40 [1, 0] (truncf (F := Ideal) .bf16 (W m c) bitsLt_bf16_f32 : FVec Ideal S40x1024 .bf16) transposes_S40x1024_S1024x40_1_0 := by
  dsimp only [Gen.V]
  simp only [Gen.hostOps0, Gen.hostOps0_1, Gen.hostOps0_2, List.flatten_cons, List.flatten_nil, List.append_nil,
    List.cons_append, List.nil_append]
  after_results
  rfl

/-- Window 3's array: the words' norms as a one-row matrix. -/
theorem V_wordNorms : (V m c main_v4 : S1x40.Idx → EReal)
    = broadcastInDim S1x40 ![1] bcast_S40_S1x40_1
        (Host.sqrt (F := Ideal) (Host.reduceAdd (F := Ideal) (mulf (F := Ideal) (W m c) (W m c)) (constant (F := Ideal) S_ .f32 0x00000000#32)
          reducesTo_S40x1024_S40_d1 h_S_)) := by
  dsimp only [Gen.V]
  simp only [Gen.hostOps0, Gen.hostOps0_1, Gen.hostOps0_2, List.flatten_cons, List.flatten_nil, List.append_nil,
    List.cons_append, List.nil_append]
  after_results
  rfl

/-- Window 2's array: the Gram matrix of the words. -/
theorem V_gram : (V m c main_v6 : S40x40.Idx → EReal)
    = Host.dotGeneral (F := Ideal) (φ₁ := .f32) (φ₂ := .f32) dot_S40x1024_S1024x40_S40x40_1_0_0_1_n_n (some .fp32) (W m c)
        (transpose S1024x40 [1, 0] (W m c) transposes_S40x1024_S1024x40_1_0 : FVec Ideal S1024x40 .f32) := by
  dsimp only [Gen.V]
  simp only [Gen.hostOps0, Gen.hostOps0_1, Gen.hostOps0_2, List.flatten_cons, List.flatten_nil, List.append_nil,
    List.cons_append, List.nil_append]
  after_results
  rfl

/-- Window 4's array: the literal matrix, word by word in row-major order. -/
theorem V_mask : (V m c main_cst : S150x21.Idx → EReal)
    = fun i => Ideal.ofBits .f32 (lit0 (S150x21.rowMajor i)) := by
  dsimp only [Gen.V]
  simp only [Gen.hostOps0, Gen.hostOps0_1, Gen.hostOps0_2, List.flatten_cons, List.flatten_nil, List.append_nil,
    List.cons_append, List.nil_append]
  after_results
  rfl

/-! ## Read at an entry -/

/-- The words of the second argument, row by row. -/
abbrev words : Fin 40 → Fin 1024 → EReal := fun w d => m ((c : Thread nD τ).loc main_arg1) (ix3 (0 : Fin 1) w d)

/-- The transposed word matrix at `(d, w)` is word `w`'s feature `d`. -/
theorem wordsT_apply (d : Fin 1024) (w : Fin 40) : V m c main_v2 (ix2 d w) = words m c w d := by
  rw [V_wordsT]
  refine (transpose_ix2_apply _ transposes_S40x1024_S1024x40_1_0 d w).trans ?_
  exact W_apply m c w d

/-- The one-row matrix of norms at `(0, w)` is word `w`'s norm. -/
theorem wordNorms_apply (w : Fin 40) : V m c main_v4 (ix2 (0 : Fin 1) w) = SegPool.norm (words m c w) := by
  rw [V_wordNorms]
  refine (Cert.Columns.bcast_row_apply _ bcast_S40_S1x40_1 (0 : Fin 1) w).trans ?_
  show Ideal.sqrt (Ideal.hostReduceAdd reducesTo_S40x1024_S40_d1 (mulf (F := Ideal) (φ := .f32) (W m c) (W m c))
    ((constant (F := Ideal) S_ .f32 0x00000000#32) (Shape.Idx.first h_S_)) (ix1 w)) = _
  have hR : S40x1024.Reduces [1] S40 := by decide
  rw [Ideal.hostReduceAdd_single reducesTo_S40x1024_S40_d1 hR]
  unfold SegPool.norm
  show Ideal.sqrt (Ideal.ofBits .f32 0x00000000#32 + _) = _
  rw [Cert.Consts.ofBits_zero, zero_add]
  refine congrArg Ideal.sqrt (Finset.sum_congr rfl fun d _ => ?_)
  have e : hR.lift (ix1 w) d = ix2 w d := funext fun a => Fin.ext (by
    match a with
    | ⟨0, _⟩ => rfl
    | ⟨1, _⟩ => rfl)
  rw [e]
  exact congrArg₂ (fun a b : EReal => a * b) (W_apply m c w ⟨d.val, d.isLt⟩) (W_apply m c w ⟨d.val, d.isLt⟩)

/-- The host's product of an m×k by a k×n matrix read at entry `(a, b)`, whatever precision it is asked for: the sum over
    the contracted coordinate. -/
theorem hostDot_apply {m' k n : ℕ} (wf : DotDims.WF ⟨2, ![m', k]⟩ ⟨2, ![k, n]⟩ ⟨2, ![m', n]⟩ [1] [0] [0] [1] [] [])
    (prec : Option ContractPrecision) (A : FVec Ideal ⟨2, ![m', k]⟩ .f32) (B : FVec Ideal ⟨2, ![k, n]⟩ .f32)
    (a : Fin m') (b : Fin n) :
    Host.dotGeneral (⟨[1], [0], [0], [1], [], [], wf⟩ : DotDims ⟨2, ![m', k]⟩ ⟨2, ![k, n]⟩ ⟨2, ![m', n]⟩) prec A B (ix2 a b)
      = ∑ d : Fin k, A (ix2 a d) * B (ix2 d b) := by
  show FloatOps.dotGeneral _ prec .single A B (ix2 a b) = _
  rw [Ideal.dotGeneral_apply,
    ← Equiv.sum_comp (contrEquiv1 (⟨[1], [0], [0], [1], [], [], wf⟩ : DotDims _ _ _) k rfl rfl).symm]
  exact Finset.sum_congr rfl fun d _ => by rw [Cert.Dense.plain_lhsIdx wf a b d, Cert.Dense.plain_rhsIdx wf a b d]

/-- The Gram matrix at `(w', w)` is the inner product of words `w'` and `w`. -/
theorem gram_apply (w' w : Fin 40) : V m c main_v6 (ix2 w' w) = ∑ d, words m c w' d * words m c w d := by
  rw [V_gram]
  refine (hostDot_apply dot_S40x1024_S1024x40_S40x40_1_0_0_1_n_n_wf (some .fp32) (W m c)
    (transpose S1024x40 [1, 0] (W m c) transposes_S40x1024_S1024x40_1_0) w' w).trans ?_
  refine Finset.sum_congr rfl fun d _ => ?_
  exact congrArg₂ (fun a b : EReal => a * b) (W_apply m c w' d)
    ((transpose_ix2_apply (W m c) transposes_S40x1024_S1024x40_1_0 d w).trans (W_apply m c w d))

end Cert.KernelIdeal.Windows

end
-- ==== Proof.SegmentMask.lean ====
/-
  The constant 150 × 21 table is the membership matrix of the twenty-one segments.

  The table lists, in row-major order, one single-precision word per pair (region 'r', segment 's'): position
  'r · 21 + s' holds the word of '1.0' when 'segLo s ≤ r < segHi s' and the word of '0.0' otherwise. This is a statement
  about 3150 explicit words and is checked position by position, with 'r = i / 21' and 's = i % 21' recovered from the
  flat position 'i'. Read as extended reals, the two words are '1' and '0', so the table is the indicator of "region 'r'
  lies in segment 's'".
-/
import proofs.«101303_j84061099917852_2_alg».proof.KernelIdeal
import proofs.«101303_j84061099917852_2_alg».proof.Proof.SegPoolSpec
import Idealize.ShloMosaic.PureOps.Ideal
import Idealize.ShloMosaic.Lib.ValueIdx

namespace Cert.SegmentMask

open Idealize.ShloMosaic

/-- Every one of the 3150 positions 'i' of the table holds the word of '1.0' exactly when the region 'i / 21' lies
    between the bounds of the segment 'i % 21': a finite check, by evaluating both sides at each position. -/
theorem table_flat : ∀ i : Fin 3150, Cert.KernelIdeal.lit0 i
    = if SegPool.segLo ⟨i.val % 21, Nat.mod_lt _ (by decide)⟩ ≤ i.val / 21
        ∧ i.val / 21 < SegPool.segHi ⟨i.val % 21, Nat.mod_lt _ (by decide)⟩
      then 0x3F800000#32 else 0x00000000#32 := by
  decide +kernel

/-- the word the table holds at row-major position r·21 + s -/
theorem mask_word (r : Fin 150) (s : Fin 21) (h : r.val * 21 + s.val < 3150) :
    Cert.KernelIdeal.lit0 ⟨r.val * 21 + s.val, h⟩
      = if SegPool.inSeg s r then 0x3F800000#32 else 0x00000000#32 := by
  -- with 's < 21', the quotient and remainder of 'r · 21 + s' by 21 are 'r' and 's'
  have hdiv : (r.val * 21 + s.val) / 21 = r.val := by omega
  have hmod : (r.val * 21 + s.val) % 21 = s.val := by omega
  have hs : (⟨(r.val * 21 + s.val) % 21, Nat.mod_lt _ (by decide)⟩ : Fin 21) = s := Fin.ext hmod
  rw [table_flat ⟨r.val * 21 + s.val, h⟩]
  simp only [hdiv, hs]
  -- membership in a segment is, by definition, the two bounds
  by_cases hc : SegPool.inSeg s r
  · rw [if_pos hc, if_pos (show SegPool.segLo s ≤ r.val ∧ r.val < SegPool.segHi s from hc)]
  · rw [if_neg hc, if_neg (show ¬ (SegPool.segLo s ≤ r.val ∧ r.val < SegPool.segHi s) from hc)]

/-- The word with sign 0, biased exponent 127 and significand 0 denotes '1 · 2⁰ = 1'. -/
theorem ofBits_one : Ideal.ofBits .f32 0x3F800000#32 = (1 : EReal) := by
  simp [Ideal.ofBits, Ideal.ieee, -EReal.coe_mul] <;> norm_num

/-- The all-zero word denotes '0'. -/
theorem ofBits_zero : Ideal.ofBits .f32 0x00000000#32 = (0 : EReal) := by
  simp [Ideal.ofBits, Ideal.ieee]

/-- the table read as extended reals at (r, s): the segment's indicator -/
theorem mask_apply (r : Fin 150) (s : Fin 21) :
    Ideal.ofBits .f32 (Cert.KernelIdeal.lit0 (Cert.KernelIdeal.S150x21.rowMajor (ValueIdx.ix2 r s)))
      = if SegPool.inSeg s r then (1 : EReal) else 0 := by
  -- the row-major position of (r, s) in a 150 × 21 array is 'r · 21 + s'
  have hpos : (Cert.KernelIdeal.S150x21.rowMajor (ValueIdx.ix2 r s)).val = r.val * 21 + s.val := by
    rw [Shape.rowMajor_val_two]
    rfl
  have hlt : r.val * 21 + s.val < 3150 := by omega
  have hidx : Cert.KernelIdeal.S150x21.rowMajor (ValueIdx.ix2 r s) = ⟨r.val * 21 + s.val, hlt⟩ :=
    Fin.ext hpos
  rw [hidx, mask_word r s hlt]
  split_ifs
  · exact ofBits_one
  · exact ofBits_zero

end Cert.SegmentMask
-- ==== Proof.KernelArray.lean ====
/-
  The kernel's result array as one function of its two arguments.

  Grid point `t` works on batch entries `16 t … 16 t + 15`: it is handed that block of the first argument and, whole,
  the transposed words, the Gram matrix, the words' norms and the segments' indicator matrix, and it writes rows
  `16 t … 16 t + 15` of the 256 × 21 result. The sixteen blocks tile the result, so entry `(b, s)` of the final array
  is what the point `b / 16` stored at row `b mod 16`: the pooled score of segment `s` over batch entry `b`'s regions,
  each region's score in the arrangement over the Gram matrix.
-/
import proofs.«101303_j84061099917852_2_alg».proof.Proof.Gen.KernelIdeal.Value
import proofs.«101303_j84061099917852_2_alg».proof.Proof.KernelRow
import proofs.«101303_j84061099917852_2_alg».proof.Proof.KernelWindows
import proofs.«101303_j84061099917852_2_alg».proof.Proof.SegmentMask
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The words of the second argument, row by row. -/
abbrev words (c : Dev nD) : Fin 40 → Fin 1024 → EReal := Windows.words m c

/-- Entry `(b, s)` of the result: segment `s` pooled over batch entry `b`'s regions. -/
def resultAt (c : Dev nD) (b : Fin 256) (s : Fin 21) : EReal :=
  SegPool.outK Cert.Consts.six Cert.Consts.c30 (SegPool.inSeg s) (fun r =>
    SegPool.rowK Cert.Consts.six Cert.Consts.eps (fun d => m ((c : Thread nD τ).loc main_arg0) (ix3 b r d))
      (fun d w => words m c w d) (fun w' w => ∑ d, words m c w' d * words m c w d) (fun w => SegPool.norm (words m c w)))

/-- The result array. -/
def result (c : Dev nD) : S256x21.Idx → EReal :=
  fun i => resultAt m c ⟨(i 0).val, (i 0).isLt⟩ ⟨(i 1).val, (i 1).isLt⟩

/-- The printed index maps, decided over the sixteen grid points: the first argument's block moves with the result's
    along the batch axis, every other window stays at the origin, and the result's block index runs over 0 … 15. -/
theorem idx_facts : ∀ t : Fin cfg0.N,
    win0_0.index t (0 : Fin 3) = win0_5.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 15 :=
  (by decide +kernel : ∀ t : Fin grid0.N, _)

/-- Every block of the result is some point's. -/
theorem idx_onto : ∀ q : Fin 16, ∃ t : Fin cfg0.N, win0_5.index t = ![q.val, 0] :=
  (by decide +kernel : ∀ q : Fin 16, ∃ t : Fin grid0.N, win0_5.index t = ![q.val, 0])

/-! ## The input blocks at a point -/

/-- The first argument's block at point `t`: batch entries from `16 ·` the result's block index on. -/
theorem blk0_apply (c : Dev nD) (t : Fin cfg0.N) (bl : Fin 16) (r : Fin 150) (d : Fin 1024)
    (hb : win0_5.index t (0 : Fin 2) * 16 + bl.val < 256) :
    iblk m c 0 t (ix3 bl r d)
      = m ((c : Thread nD τ).loc main_arg0) (ix3 ⟨win0_5.index t (0 : Fin 2) * 16 + bl.val, hb⟩ r d) := by
  obtain ⟨e0, e1, e2, -⟩ := idx_facts t
  rw [← V_main_arg0 m c]
  show V m c main_arg0 (((cfg0.win 0).blk t).view.emb (ix3 bl r d)) = _
  refine congrArg _ (funext fun a => Fin.ext ?_)
  match a with
  | ⟨0, _⟩ => show win0_0.index t (0 : Fin 3) * 16 + 1 * bl.val = win0_5.index t (0 : Fin 2) * 16 + bl.val; omega
  | ⟨1, _⟩ => show win0_0.index t (1 : Fin 3) * 150 + 1 * r.val = r.val; omega
  | ⟨2, _⟩ => show win0_0.index t (2 : Fin 3) * 1024 + 1 * d.val = d.val; omega

/-- The transposed words at any point. -/
theorem blk1_apply (c : Dev nD) (t : Fin cfg0.N) (d : Fin 1024) (w : Fin 40) :
    (iblk m c 1 t (ix2 d w) : EReal) = words m c w d := by
  obtain ⟨-, -, -, e3, e4, -⟩ := idx_facts t
  refine Eq.trans ?_ (Windows.wordsT_apply m c d w)
  show V m c main_v2 (((cfg0.win 1).blk t).view.emb (ix2 d w)) = V m c main_v2 (ix2 d w)
  refine congrArg _ (funext fun a => Fin.ext ?_)
  match a with
  | ⟨0, _⟩ => show win0_1.index t (0 : Fin 2) * 1024 + 1 * d.val = d.val; omega
  | ⟨1, _⟩ => show win0_1.index t (1 : Fin 2) * 40 + 1 * w.val = w.val; omega

/-- The Gram matrix at any point. -/
theorem blk2_apply (c : Dev nD) (t : Fin cfg0.N) (w' w : Fin 40) :
    (iblk m c 2 t (ix2 w' w) : EReal) = ∑ d, words m c w' d * words m c w d := by
  obtain ⟨-, -, -, -, -, e5, e6, -⟩ := idx_facts t
  refine Eq.trans ?_ (Windows.gram_apply m c w' w)
  show V m c main_v6 (((cfg0.win 2).blk t).view.emb (ix2 w' w)) = V m c main_v6 (ix2 w' w)
  refine congrArg _ (funext fun a => Fin.ext ?_)
  match a with
  | ⟨0, _⟩ => show win0_2.index t (0 : Fin 2) * 40 + 1 * w'.val = w'.val; omega
  | ⟨1, _⟩ => show win0_2.index t (1 : Fin 2) * 40 + 1 * w.val = w.val; omega

/-- The words' norms at any point. -/
theorem blk3_apply (c : Dev nD) (t : Fin cfg0.N) (w : Fin 40) :
    (iblk m c 3 t (ix2 (0 : Fin 1) w) : EReal) = SegPool.norm (words m c w) := by
  obtain ⟨-, -, -, -, -, -, -, e7, e8, -⟩ := idx_facts t
  refine Eq.trans ?_ (Windows.wordNorms_apply m c w)
  show V m c main_v4 (((cfg0.win 3).blk t).view.emb (ix2 (0 : Fin 1) w)) = V m c main_v4 (ix2 (0 : Fin 1) w)
  refine congrArg _ (funext fun a => Fin.ext ?_)
  match a with
  | ⟨0, _⟩ => show win0_3.index t (0 : Fin 2) * 1 + 1 * 0 = 0; omega
  | ⟨1, _⟩ => show win0_3.index t (1 : Fin 2) * 40 + 1 * w.val = w.val; omega

/-- The segments' indicator matrix at any point. -/
theorem blk4_apply (c : Dev nD) (t : Fin cfg0.N) (r : Fin 150) (s : Fin 21) :
    (iblk m c 4 t (ix2 r s) : EReal) = if SegPool.inSeg s r then (1 : EReal) else 0 := by
  obtain ⟨-, -, -, -, -, -, -, -, -, e9, e10, -⟩ := idx_facts t
  refine Eq.trans ?_ (Cert.SegmentMask.mask_apply r s)
  show V m c main_cst (((cfg0.win 4).blk t).view.emb (ix2 r s)) = _
  rw [Windows.V_mask]
  refine congrArg (fun i : S150x21.Idx => Ideal.ofBits .f32 (lit0 (S150x21.rowMajor i))) (funext fun a => Fin.ext ?_)
  match a with
  | ⟨0, _⟩ => show win0_4.index t (0 : Fin 2) * 150 + 1 * r.val = r.val; omega
  | ⟨1, _⟩ => show win0_4.index t (1 : Fin 2) * 21 + 1 * s.val = s.val; omega

/-! ## What a point writes back, and the array -/

/-- What point `t` writes back is block `t` of the result. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz2]
  simp only [View.ld_unit_zero (S := S16x150x1024) hz3, View.ld_unit_zero (S := S1024x40) hz2,
    View.ld_unit_zero (S := S40x40) hz2, View.ld_unit_zero (S := S1x40) hz2, View.ld_unit_zero (S := S150x21) hz2]
  have hf := idx_facts t
  funext j
  obtain ⟨bl, s, rfl⟩ : ∃ (bl : Fin 16) (s : Fin 21), j = ix2 bl s := ⟨j 0, j 1, eq_ix2 j⟩
  have hb : win0_5.index t (0 : Fin 2) * 16 + bl.val < 256 := by have := bl.isLt; omega
  show k0_pay1 (F := Ideal) (k0_pay4 (iblk m c 0 t)) (k0_pay6 (iblk m c 0 t) (iblk m c 1 t) (iblk m c 3 t))
      (k0_pay7 (iblk m c 0 t) (iblk m c 1 t) (iblk m c 3 t) (iblk m c 2 t)) (iblk m c 4 t) (ix2 bl s)
    = result m c (((cfg0.win 5).blk t).view.emb (ix2 bl s))
  refine (RowValue.block_apply (iblk m c 0 t) (iblk m c 1 t) (iblk m c 2 t) (iblk m c 3 t) (iblk m c 4 t) bl s
    (fun r => blk4_apply m c t r s)).trans ?_
  have hemb : ((cfg0.win 5).blk t).view.emb (ix2 bl s) = ix2 ⟨win0_5.index t (0 : Fin 2) * 16 + bl.val, hb⟩ s := by
    funext a; apply Fin.ext
    match a with
    | ⟨0, _⟩ => show win0_5.index t (0 : Fin 2) * 16 + 1 * bl.val = win0_5.index t (0 : Fin 2) * 16 + bl.val; omega
    | ⟨1, _⟩ => show win0_5.index t (1 : Fin 2) * 21 + 1 * s.val = s.val; omega
  rw [hemb]
  show _ = resultAt m c ⟨win0_5.index t (0 : Fin 2) * 16 + bl.val, hb⟩ s
  unfold resultAt
  refine congrArg _ (funext fun r => ?_)
  have h0 : (fun d => iblk m c 0 t (ix3 bl r d))
      = fun d => m ((c : Thread nD τ).loc main_arg0) (ix3 ⟨win0_5.index t (0 : Fin 2) * 16 + bl.val, hb⟩ r d) :=
    funext fun d => blk0_apply m c t bl r d hb
  have h1 : RowValue.wordsT (iblk m c 1 t) = fun d w => words m c w d :=
    funext fun d => funext fun w => blk1_apply m c t d w
  have h2 : RowValue.gram (iblk m c 2 t) = fun w' w => ∑ d, words m c w' d * words m c w d :=
    funext fun w' => funext fun w => blk2_apply m c t w' w
  have h3 : RowValue.wordNorms (iblk m c 3 t) = fun w => SegPool.norm (words m c w) :=
    funext fun w => blk3_apply m c t w
  rw [h0, h1, h2, h3]

/-- An index of the result is in point `t`'s block iff each coordinate is in the block's range on its axis. -/
theorem mem_blk (t : Fin cfg0.N) (i : S256x21.Idx) :
    i ∈ ((cfg0.win 5).blk t).view.set ↔ ∀ a : Fin 2, win0_5.index t a * S16x21.size a ≤ (i a).val
      ∧ (i a).val < win0_5.index t a * S16x21.size a + S16x21.size a := by
  show i ∈ ((View.whole main_v7).slice (win0_5.rect t)).set ↔ _
  rw [View.set_slice_whole, Rect.mem_set_unit]
  exact Iff.rfl

/-- Every index of the result lies in the block of the point `row / 16`. -/
theorem cover (i : S256x21.Idx) :
    ∃ t : Fin cfg0.N, (cfg0.win 5).flush t = true ∧ i ∈ ((cfg0.win 5).blk t).view.set := by
  have hi0 : (i 0).val < 256 := (i 0).isLt
  have hi1 : (i 1).val < 21 := (i 1).isLt
  obtain ⟨t, ht⟩ := idx_onto ⟨(i 0).val / 16, by omega⟩
  have q0 : win0_5.index t (0 : Fin 2) = (i 0).val / 16 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 16 ≤ (i 0).val ∧ (i 0).val < win0_5.index t (0 : Fin 2) * 16 + 16
    omega
  | ⟨1, _⟩ =>
    show win0_5.index t (1 : Fin 2) * 21 ≤ (i 1).val ∧ (i 1).val < win0_5.index t (1 : Fin 2) * 21 + 21
    omega

/-- The result array after the run. -/
theorem final (c : Dev nD) : (dats m 0 c).arrAt 5 cfg0.N = result m c :=
  (dats m 0 c).arrAt_eq_of_cover 5 (result m c) (fun t _ => flushed_eq m c t) cover

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.ReferenceRow.lean ====
/-
  What the reference computes for one region row, read entry by entry at the ideal values.

  For batch entry `b` and region `r` the reference takes the row's inner products with the 40 words (the word matrix
  repeated over the batch), the two norms, the cosines and their softmax, forms the attended sentence as the words mixed
  by the weights, and scores the row by its cosine with that sentence; the score, scaled and exponentiated, is what the
  segment sums add up.
-/
import proofs.«101303_j84061099917852_2_alg».proof.Proof.ReferenceIdealReadP
import proofs.«101303_j84061099917852_2_alg».proof.Proof.SegPoolSpec
import proofs.«101303_j84061099917852_2_alg».proof.Proof.Consts
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RowValue

open Cert.ReferenceIdeal Cert.ReferenceIdeal.Gen Cert.ReferenceIdeal.ReadP
  Idealize.ShloMosaic Idealize.ShloMosaic.ValueIdx

variable (x0 : (⟨S256x150x1024, .f32⟩ : BufTy).Contents (Elt Ideal)) (x1 : (⟨S1x40x1024, .f32⟩ : BufTy).Contents (Elt Ideal))
  (b : Fin 256) (r : Fin 150)

/-- Region `r` of batch entry `b`. -/
abbrev row : Fin 1024 → EReal := fun d => x0 (ix3 b r d)

/-- The word matrix, row by row. -/
abbrev words : Fin 40 → Fin 1024 → EReal := fun w d => x1 (ix3 (0 : Fin 1) w d)

/-- The row's inner product with word `w`. -/
theorem dots_apply (w : Fin 40) : val_main_v1 (F := Ideal) x0 x1 (ix3 b r w) = SegPool.dotsR (row x0 b r) (words x1) w := by
  rw [val_main_v1_apply]
  unfold SegPool.dotsR
  refine Finset.sum_congr rfl fun d _ => ?_
  rw [val_main_v0_apply]
  have e0 : lidx_main_v1 (ix3 b r w) d = ix3 b r d := funext fun a => Fin.ext (by
    match a with | ⟨0, _⟩ => rfl | ⟨1, _⟩ => rfl | ⟨2, _⟩ => rfl)
  have e1 : idx_main_v0 (ridx_main_v1 (ix3 b r w) d) = ix3 (0 : Fin 1) w d := funext fun a => Fin.ext (by
    match a with | ⟨0, _⟩ => rfl | ⟨1, _⟩ => rfl | ⟨2, _⟩ => rfl)
  rw [e0, e1]

/-- The row's norm. -/
theorem rowNorm_apply : val_main_v2 (F := Ideal) x0 (ix2 b r) = SegPool.norm (row x0 b r) := by
  rw [val_main_v2_apply, val_main_call0_v1_apply, val_main_call0_cst_apply]
  unfold SegPool.norm
  show Ideal.sqrt (Ideal.ofBits .f32 0x00000000#32 + _) = _
  rw [Cert.Consts.ofBits_zero, zero_add]
  refine congrArg Ideal.sqrt (Finset.sum_congr rfl fun d _ => ?_)
  rw [val_main_call0_v0_apply]
  have e : idx_main_call0_v1 (ix2 b r) d = ix3 b r d := funext fun a => Fin.ext (by
    match a with | ⟨0, _⟩ => rfl | ⟨1, _⟩ => rfl | ⟨2, _⟩ => rfl)
  rw [e]
  rfl

/-- Word `w`'s norm. -/
theorem wordNorm_apply (w : Fin 40) : val_main_v3 (F := Ideal) x1 (ix2 b w) = SegPool.norm (words x1 w) := by
  rw [val_main_v3_apply, val_main_call1_v1_apply, val_main_call1_cst_apply]
  unfold SegPool.norm
  show Ideal.sqrt (Ideal.ofBits .f32 0x00000000#32 + _) = _
  rw [Cert.Consts.ofBits_zero, zero_add]
  refine congrArg Ideal.sqrt (Finset.sum_congr rfl fun d _ => ?_)
  rw [val_main_call1_v0_apply, val_main_v0_apply]
  have e : idx_main_v0 (idx_main_call1_v1 (ix2 b w) d) = ix3 (0 : Fin 1) w d := funext fun a => Fin.ext (by
    match a with | ⟨0, _⟩ => rfl | ⟨1, _⟩ => rfl | ⟨2, _⟩ => rfl)
  rw [e]
  rfl

/-- The row's cosine with word `w`. -/
theorem score_apply (w : Fin 40) : val_main_v11 (F := Ideal) x0 x1 (ix3 b r w)
    = SegPool.score Cert.Consts.eps (SegPool.norm (row x0 b r)) (fun w => SegPool.norm (words x1 w))
        (SegPool.dotsR (row x0 b r) (words x1)) w := by
  rw [val_main_v11_apply, val_main_v10_apply, val_main_v8_apply, val_main_v6_apply, val_main_v4_apply,
    val_main_v7_apply, val_main_v5_apply, val_main_v9_apply, val_main_cst_apply, dots_apply]
  have e2 : idx_main_v4 (idx_main_v6 (ix3 b r w)) = ix2 b r := funext fun a => Fin.ext (by
    match a with | ⟨0, _⟩ => rfl | ⟨1, _⟩ => rfl)
  have e3 : idx_main_v5 (idx_main_v7 (ix3 b r w)) = ix2 b w := funext fun a => Fin.ext (by
    match a with | ⟨0, _⟩ => rfl | ⟨1, _⟩ => rfl)
  rw [e2, e3, rowNorm_apply, wordNorm_apply]
  rfl

/-- The row's cosines. -/
abbrev cosines : Fin 40 → EReal :=
  SegPool.score Cert.Consts.eps (SegPool.norm (row x0 b r)) (fun w => SegPool.norm (words x1 w))
    (SegPool.dotsR (row x0 b r) (words x1))

/-- The row's largest cosine: the host's maximum over the words from `-∞`, compared with `-∞` once more. -/
theorem peak_apply : val_main_v14 (F := Ideal) x0 x1 (ix2 b r) = SegPool.peak (cosines x0 x1 b r) := by
  rw [val_main_v14_apply, val_main_v13_apply, val_main_cst_1_apply]
  have hR : S256x150x40.Reduces [2] S256x150 := by decide
  have h12 : val_main_v12 (F := Ideal) x0 x1 (ix2 b r)
      = (Finset.univ : Finset (Fin 40)).fold max ⊥ (cosines x0 x1 b r) := by
    unfold val_main_v12
    have key := Host.reduce_eq_fold_single (α := Ideal .f32) (FloatOps.maximumf (F := Ideal) (φ := .f32))
      (val_main_v11 (F := Ideal) x0 x1 : S256x150x40.Idx → Ideal .f32) (val_main_cst_0 (F := Ideal) : S_.Idx → Ideal .f32)
      reducesTo_S256x150x40_S256x150_d2 hR h_S_ (ix2 b r)
    refine key.trans ?_
    show (Finset.univ : Finset (Fin 40)).fold max (Ideal.ofBits .f32 0xFF800000#32)
      (val_main_v11 (F := Ideal) x0 x1 ∘ hR.lift (ix2 b r)) = _
    rw [Cert.Consts.ofBits_ninf]
    have e : (val_main_v11 (F := Ideal) x0 x1 ∘ hR.lift (ix2 b r)) = cosines x0 x1 b r := funext fun w => by
      have ew : hR.lift (ix2 b r) w = ix3 b r (⟨w.val, w.isLt⟩ : Fin 40) := funext fun a => Fin.ext (by
        match a with | ⟨0, _⟩ => rfl | ⟨1, _⟩ => rfl | ⟨2, _⟩ => rfl)
      show val_main_v11 (F := Ideal) x0 x1 (hR.lift (ix2 b r) w) = _
      rw [ew]
      exact score_apply x0 x1 b r (⟨w.val, w.isLt⟩ : Fin 40)
    exact congrArg (fun g => (Finset.univ : Finset (Fin 40)).fold max ⊥ g) e
  rw [h12]
  show max (Ideal.ofBits .f32 0xFF800000#32) _ = _
  rw [Cert.Consts.ofBits_ninf]
  rfl

/-- The exponential of a cosine less the row's peak. -/
theorem exp_apply (w : Fin 40) : val_main_v18 (F := Ideal) x0 x1 (ix3 b r w)
    = Ideal.exp (cosines x0 x1 b r w - SegPool.peak (cosines x0 x1 b r)) := by
  rw [val_main_v18_apply, val_main_v17_apply, val_main_v16_apply, val_main_v15_apply, score_apply]
  have e : idx_main_v15 (idx_main_v16 (ix3 b r w)) = ix2 b r := funext fun a => Fin.ext (by
    match a with | ⟨0, _⟩ => rfl | ⟨1, _⟩ => rfl)
  rw [e, peak_apply]
  rfl

/-- An attention weight. -/
theorem attn_apply (w : Fin 40) : val_main_v22 (F := Ideal) x0 x1 (ix3 b r w) = SegPool.attnR Cert.Consts.eps (row x0 b r) (words x1) w := by
  rw [val_main_v22_apply, val_main_v21_apply, val_main_v20_apply, val_main_v19_apply, val_main_cst_2_apply, exp_apply]
  have e : idx_main_v20 (idx_main_v21 (ix3 b r w)) = ix2 b r := funext fun a => Fin.ext (by
    match a with | ⟨0, _⟩ => rfl | ⟨1, _⟩ => rfl)
  rw [e]
  have hs : ∀ w' : Fin 40, val_main_v18 (F := Ideal) x0 x1 (idx_main_v19 (ix2 b r) w')
      = Ideal.exp (cosines x0 x1 b r w' - SegPool.peak (cosines x0 x1 b r)) := fun w' => by
    have ew : idx_main_v19 (ix2 b r) w' = ix3 b r w' := funext fun a => Fin.ext (by
      match a with | ⟨0, _⟩ => rfl | ⟨1, _⟩ => rfl | ⟨2, _⟩ => rfl)
    rw [ew, exp_apply]
  simp only [hs]
  show Ideal.div _ (Ideal.ofBits .f32 0x00000000#32 + _) = _
  rw [Cert.Consts.ofBits_zero, zero_add]
  rfl

/-- The attended sentence's feature `d`. -/
theorem mix_apply (d : Fin 1024) : val_main_v23 (F := Ideal) x0 x1 (ix3 b r d) = SegPool.mixR Cert.Consts.eps (row x0 b r) (words x1) d := by
  rw [val_main_v23_apply]
  unfold SegPool.mixR
  refine Finset.sum_congr rfl fun w _ => ?_
  have el : lidx_main_v23 (ix3 b r d) w = ix3 b r w := funext fun a => Fin.ext (by
    match a with | ⟨0, _⟩ => rfl | ⟨1, _⟩ => rfl | ⟨2, _⟩ => rfl)
  have er : idx_main_v0 (ridx_main_v23 (ix3 b r d) w) = ix3 (0 : Fin 1) w d := funext fun a => Fin.ext (by
    match a with | ⟨0, _⟩ => rfl | ⟨1, _⟩ => rfl | ⟨2, _⟩ => rfl)
  rw [el, attn_apply, val_main_v0_apply, er]

/-- The attended sentence's norm. -/
theorem mixNorm_apply : val_main_v26 (F := Ideal) x0 x1 (ix2 b r) = SegPool.norm (SegPool.mixR Cert.Consts.eps (row x0 b r) (words x1)) := by
  rw [val_main_v26_apply, val_main_call2_v1_apply, val_main_call2_cst_apply]
  unfold SegPool.norm
  show Ideal.sqrt (Ideal.ofBits .f32 0x00000000#32 + _) = _
  rw [Cert.Consts.ofBits_zero, zero_add]
  refine congrArg Ideal.sqrt (Finset.sum_congr rfl fun d _ => ?_)
  rw [val_main_call2_v0_apply]
  have e : idx_main_call2_v1 (ix2 b r) d = ix3 b r d := funext fun a => Fin.ext (by
    match a with | ⟨0, _⟩ => rfl | ⟨1, _⟩ => rfl | ⟨2, _⟩ => rfl)
  rw [e, mix_apply]
  rfl

/-- The row's exponentiated score. -/
theorem expScore_apply : val_main_v33 (F := Ideal) x0 x1 (ix2 b r) = SegPool.rowR Cert.Consts.six Cert.Consts.eps (row x0 b r) (words x1) := by
  rw [val_main_v33_apply, val_main_v32_apply, val_main_v30_apply, val_main_v29_apply, val_main_v27_apply,
    val_main_v28_apply, val_main_cst_4_apply, val_main_v31_apply, val_main_cst_5_apply, val_main_v25_apply,
    val_main_cst_3_apply, rowNorm_apply, mixNorm_apply]
  have hs : ∀ d : Fin 1024, val_main_v24 (F := Ideal) x0 x1 (idx_main_v25 (ix2 b r) d)
      = row x0 b r d * SegPool.mixR Cert.Consts.eps (row x0 b r) (words x1) d := fun d => by
    have e : idx_main_v25 (ix2 b r) d = ix3 b r d := funext fun a => Fin.ext (by
      match a with | ⟨0, _⟩ => rfl | ⟨1, _⟩ => rfl | ⟨2, _⟩ => rfl)
    rw [e, val_main_v24_apply, mix_apply]
    rfl
  simp only [hs]
  unfold SegPool.rowR SegPool.expScore
  show Ideal.exp (Ideal.div (Ideal.ofBits .f32 0x00000000#32 + _) _ * _) = _
  rw [Cert.Consts.ofBits_zero, zero_add]
  rfl

end Cert.ReferenceIdeal.RowValue

end
-- ==== Proof.LibWindowSum.lean ====
/-
  A sum over a window of consecutive positions, written as a sum over the whole range.

  Let 'lo + n ≤ N'. The map 'k ↦ lo + k' is a bijection from the positions '0, …, n - 1' onto the positions 'r' of
  '0, …, N - 1' with 'lo ≤ r < lo + n', its inverse being 'r ↦ r - lo'. A sum over all positions of terms that are
  zero outside the window is the sum over the window, and the bijection carries one sum to the other. Only the addition
  of a commutative monoid is used: no subtraction and no cancellation of values.
-/
import Mathlib.Algebra.BigOperators.Fin

namespace Cert.WindowSum

/-- A sum over a window of consecutive positions lo, …, lo + n - 1 of Fin N is the sum over all of Fin N of the
    terms inside the window. -/
theorem sum_window {M : Type*} [AddCommMonoid M] {N : ℕ} (lo n : ℕ) (h : lo + n ≤ N) (f : Fin N → M) :
    (∑ k : Fin n, f ⟨lo + k.val, by have := k.isLt; omega⟩)
      = ∑ r : Fin N, if lo ≤ r.val ∧ r.val < lo + n then f r else 0 := by
  -- the right side is the sum over the positions inside the window
  rw [← Finset.sum_filter]
  -- and 'k ↦ lo + k', 'r ↦ r - lo' are inverse bijections between the two index sets
  refine Finset.sum_bij'
    (fun k _ => (⟨lo + k.val, by have := k.isLt; omega⟩ : Fin N))
    (fun r hr => (⟨r.val - lo, by have := (Finset.mem_filter.1 hr).2; omega⟩ : Fin n))
    ?_ ?_ ?_ ?_ ?_
  · intro k _
    have := k.isLt
    exact Finset.mem_filter.2 ⟨Finset.mem_univ _, by show lo ≤ lo + k.val ∧ lo + k.val < lo + n; omega⟩
  · intro r _
    exact Finset.mem_univ _
  · intro k _
    exact Fin.ext (by show lo + k.val - lo = k.val; omega)
  · intro r hr
    have := (Finset.mem_filter.1 hr).2
    exact Fin.ext (by show lo + (r.val - lo) = r.val; omega)
  · intro k _
    rfl

/-- The same with the terms given on the natural numbers. -/
theorem sum_window' {M : Type*} [AddCommMonoid M] {N : ℕ} (lo n : ℕ) (h : lo + n ≤ N) (g : ℕ → M) :
    (∑ k : Fin n, g (lo + k.val)) = ∑ r : Fin N, if lo ≤ r.val ∧ r.val < lo + n then g r.val else 0 :=
  sum_window lo n h fun r => g r.val

end Cert.WindowSum
-- ==== Proof.ReferenceOut.lean ====
/-
  The reference's result array, read at an entry.

  The reference takes the exponentiated scores of batch entry `b`'s 150 regions and, for each of the 21 segments, sums
  the slice of regions the segment covers, takes the logarithm and divides by six; the 21 columns so obtained are laid
  side by side, sixteen of them first, then five, then the two groups joined. Column `s` of the result at row `b` is
  therefore the pooled score of segment `s`: a slice's sum is the sum over all regions of the terms inside the segment.
-/
import proofs.«101303_j84061099917852_2_alg».proof.Proof.ReferenceRow
import proofs.«101303_j84061099917852_2_alg».proof.Proof.LibDense
import proofs.«101303_j84061099917852_2_alg».proof.Proof.LibWindowSum

noncomputable section

namespace Cert.ReferenceIdeal.OutValue

open Cert.ReferenceIdeal Cert.ReferenceIdeal.Gen Cert.ReferenceIdeal.ReadP Idealize.ShloMosaic Idealize.ShloMosaic.ValueIdx

variable (x0 : (⟨S256x150x1024, .f32⟩ : BufTy).Contents (Elt Ideal)) (x1 : (⟨S1x40x1024, .f32⟩ : BufTy).Contents (Elt Ideal))
  (b : Fin 256)

/-- The exponentiated scores of batch entry `b`'s regions. -/
abbrev scores : Fin 150 → EReal := fun r => val_main_v33 (F := Ideal) x0 x1 (ix2 b r)

/-! ## The 21 columns -/

/-- Column 0: regions 0 … 24. -/
theorem col_0 : val_main_v39 (F := Ideal) x0 x1 (ix2 b (0 : Fin 1))
    = SegPool.outR Cert.Consts.six (SegPool.inSeg (⟨0, by decide⟩ : Fin 21)) (scores x0 x1 b) := by
  rw [val_main_v39_apply, val_main_v37_apply, val_main_v36_apply, val_main_v35_apply, val_main_cst_6_apply,
    val_main_v38_apply, val_main_cst_7_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 25, val_main_v34 (F := Ideal) x0 x1 (idx_main_v35 (idx_main_v36 (ix2 b (0 : Fin 1))) k)
      = scores x0 x1 b ⟨0 + k.val, by have := k.isLt; omega⟩ := fun k => by
    rw [val_main_v34_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 0 25 (by decide) (scores x0 x1 b)).trans
    (Finset.sum_congr rfl fun r _ => if_congr Iff.rfl rfl rfl)

/-- Column 1: regions 0 … 49. -/
theorem col_1 : val_main_v45 (F := Ideal) x0 x1 (ix2 b (0 : Fin 1))
    = SegPool.outR Cert.Consts.six (SegPool.inSeg (⟨1, by decide⟩ : Fin 21)) (scores x0 x1 b) := by
  rw [val_main_v45_apply, val_main_v43_apply, val_main_v42_apply, val_main_v41_apply, val_main_cst_8_apply,
    val_main_v44_apply, val_main_cst_9_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 50, val_main_v40 (F := Ideal) x0 x1 (idx_main_v41 (idx_main_v42 (ix2 b (0 : Fin 1))) k)
      = scores x0 x1 b ⟨0 + k.val, by have := k.isLt; omega⟩ := fun k => by
    rw [val_main_v40_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 0 50 (by decide) (scores x0 x1 b)).trans
    (Finset.sum_congr rfl fun r _ => if_congr Iff.rfl rfl rfl)

/-- Column 2: regions 0 … 74. -/
theorem col_2 : val_main_v51 (F := Ideal) x0 x1 (ix2 b (0 : Fin 1))
    = SegPool.outR Cert.Consts.six (SegPool.inSeg (⟨2, by decide⟩ : Fin 21)) (scores x0 x1 b) := by
  rw [val_main_v51_apply, val_main_v49_apply, val_main_v48_apply, val_main_v47_apply, val_main_cst_10_apply,
    val_main_v50_apply, val_main_cst_11_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 75, val_main_v46 (F := Ideal) x0 x1 (idx_main_v47 (idx_main_v48 (ix2 b (0 : Fin 1))) k)
      = scores x0 x1 b ⟨0 + k.val, by have := k.isLt; omega⟩ := fun k => by
    rw [val_main_v46_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 0 75 (by decide) (scores x0 x1 b)).trans
    (Finset.sum_congr rfl fun r _ => if_congr Iff.rfl rfl rfl)

/-- Column 3: regions 0 … 99. -/
theorem col_3 : val_main_v57 (F := Ideal) x0 x1 (ix2 b (0 : Fin 1))
    = SegPool.outR Cert.Consts.six (SegPool.inSeg (⟨3, by decide⟩ : Fin 21)) (scores x0 x1 b) := by
  rw [val_main_v57_apply, val_main_v55_apply, val_main_v54_apply, val_main_v53_apply, val_main_cst_12_apply,
    val_main_v56_apply, val_main_cst_13_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 100, val_main_v52 (F := Ideal) x0 x1 (idx_main_v53 (idx_main_v54 (ix2 b (0 : Fin 1))) k)
      = scores x0 x1 b ⟨0 + k.val, by have := k.isLt; omega⟩ := fun k => by
    rw [val_main_v52_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 0 100 (by decide) (scores x0 x1 b)).trans
    (Finset.sum_congr rfl fun r _ => if_congr Iff.rfl rfl rfl)

/-- Column 4: regions 0 … 124. -/
theorem col_4 : val_main_v63 (F := Ideal) x0 x1 (ix2 b (0 : Fin 1))
    = SegPool.outR Cert.Consts.six (SegPool.inSeg (⟨4, by decide⟩ : Fin 21)) (scores x0 x1 b) := by
  rw [val_main_v63_apply, val_main_v61_apply, val_main_v60_apply, val_main_v59_apply, val_main_cst_14_apply,
    val_main_v62_apply, val_main_cst_15_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 125, val_main_v58 (F := Ideal) x0 x1 (idx_main_v59 (idx_main_v60 (ix2 b (0 : Fin 1))) k)
      = scores x0 x1 b ⟨0 + k.val, by have := k.isLt; omega⟩ := fun k => by
    rw [val_main_v58_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 0 125 (by decide) (scores x0 x1 b)).trans
    (Finset.sum_congr rfl fun r _ => if_congr Iff.rfl rfl rfl)

/-- Column 5: regions 0 … 149. -/
theorem col_5 : val_main_v68 (F := Ideal) x0 x1 (ix2 b (0 : Fin 1))
    = SegPool.outR Cert.Consts.six (SegPool.inSeg (⟨5, by decide⟩ : Fin 21)) (scores x0 x1 b) := by
  rw [val_main_v68_apply, val_main_v66_apply, val_main_v65_apply, val_main_v64_apply, val_main_cst_16_apply,
    val_main_v67_apply, val_main_cst_17_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 150, val_main_v33 (F := Ideal) x0 x1 (idx_main_v64 (idx_main_v65 (ix2 b (0 : Fin 1))) k)
      = scores x0 x1 b ⟨0 + k.val, by have := k.isLt; omega⟩ := fun k =>
    congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 0 150 (by decide) (scores x0 x1 b)).trans
    (Finset.sum_congr rfl fun r _ => if_congr Iff.rfl rfl rfl)

/-- Column 6: regions 25 … 49. -/
theorem col_6 : val_main_v74 (F := Ideal) x0 x1 (ix2 b (0 : Fin 1))
    = SegPool.outR Cert.Consts.six (SegPool.inSeg (⟨6, by decide⟩ : Fin 21)) (scores x0 x1 b) := by
  rw [val_main_v74_apply, val_main_v72_apply, val_main_v71_apply, val_main_v70_apply, val_main_cst_18_apply,
    val_main_v73_apply, val_main_cst_19_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 25, val_main_v69 (F := Ideal) x0 x1 (idx_main_v70 (idx_main_v71 (ix2 b (0 : Fin 1))) k)
      = scores x0 x1 b ⟨25 + k.val, by have := k.isLt; omega⟩ := fun k => by
    rw [val_main_v69_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 25 25 (by decide) (scores x0 x1 b)).trans
    (Finset.sum_congr rfl fun r _ => if_congr Iff.rfl rfl rfl)

/-- Column 7: regions 25 … 74. -/
theorem col_7 : val_main_v80 (F := Ideal) x0 x1 (ix2 b (0 : Fin 1))
    = SegPool.outR Cert.Consts.six (SegPool.inSeg (⟨7, by decide⟩ : Fin 21)) (scores x0 x1 b) := by
  rw [val_main_v80_apply, val_main_v78_apply, val_main_v77_apply, val_main_v76_apply, val_main_cst_20_apply,
    val_main_v79_apply, val_main_cst_21_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 50, val_main_v75 (F := Ideal) x0 x1 (idx_main_v76 (idx_main_v77 (ix2 b (0 : Fin 1))) k)
      = scores x0 x1 b ⟨25 + k.val, by have := k.isLt; omega⟩ := fun k => by
    rw [val_main_v75_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 25 50 (by decide) (scores x0 x1 b)).trans
    (Finset.sum_congr rfl fun r _ => if_congr Iff.rfl rfl rfl)

/-- Column 8: regions 25 … 99. -/
theorem col_8 : val_main_v86 (F := Ideal) x0 x1 (ix2 b (0 : Fin 1))
    = SegPool.outR Cert.Consts.six (SegPool.inSeg (⟨8, by decide⟩ : Fin 21)) (scores x0 x1 b) := by
  rw [val_main_v86_apply, val_main_v84_apply, val_main_v83_apply, val_main_v82_apply, val_main_cst_22_apply,
    val_main_v85_apply, val_main_cst_23_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 75, val_main_v81 (F := Ideal) x0 x1 (idx_main_v82 (idx_main_v83 (ix2 b (0 : Fin 1))) k)
      = scores x0 x1 b ⟨25 + k.val, by have := k.isLt; omega⟩ := fun k => by
    rw [val_main_v81_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 25 75 (by decide) (scores x0 x1 b)).trans
    (Finset.sum_congr rfl fun r _ => if_congr Iff.rfl rfl rfl)

/-- Column 9: regions 25 … 124. -/
theorem col_9 : val_main_v92 (F := Ideal) x0 x1 (ix2 b (0 : Fin 1))
    = SegPool.outR Cert.Consts.six (SegPool.inSeg (⟨9, by decide⟩ : Fin 21)) (scores x0 x1 b) := by
  rw [val_main_v92_apply, val_main_v90_apply, val_main_v89_apply, val_main_v88_apply, val_main_cst_24_apply,
    val_main_v91_apply, val_main_cst_25_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 100, val_main_v87 (F := Ideal) x0 x1 (idx_main_v88 (idx_main_v89 (ix2 b (0 : Fin 1))) k)
      = scores x0 x1 b ⟨25 + k.val, by have := k.isLt; omega⟩ := fun k => by
    rw [val_main_v87_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 25 100 (by decide) (scores x0 x1 b)).trans
    (Finset.sum_congr rfl fun r _ => if_congr Iff.rfl rfl rfl)

/-- Column 10: regions 25 … 149. -/
theorem col_10 : val_main_v98 (F := Ideal) x0 x1 (ix2 b (0 : Fin 1))
    = SegPool.outR Cert.Consts.six (SegPool.inSeg (⟨10, by decide⟩ : Fin 21)) (scores x0 x1 b) := by
  rw [val_main_v98_apply, val_main_v96_apply, val_main_v95_apply, val_main_v94_apply, val_main_cst_26_apply,
    val_main_v97_apply, val_main_cst_27_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 125, val_main_v93 (F := Ideal) x0 x1 (idx_main_v94 (idx_main_v95 (ix2 b (0 : Fin 1))) k)
      = scores x0 x1 b ⟨25 + k.val, by have := k.isLt; omega⟩ := fun k => by
    rw [val_main_v93_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 25 125 (by decide) (scores x0 x1 b)).trans
    (Finset.sum_congr rfl fun r _ => if_congr Iff.rfl rfl rfl)

/-- Column 11: regions 50 … 74. -/
theorem col_11 : val_main_v104 (F := Ideal) x0 x1 (ix2 b (0 : Fin 1))
    = SegPool.outR Cert.Consts.six (SegPool.inSeg (⟨11, by decide⟩ : Fin 21)) (scores x0 x1 b) := by
  rw [val_main_v104_apply, val_main_v102_apply, val_main_v101_apply, val_main_v100_apply, val_main_cst_28_apply,
    val_main_v103_apply, val_main_cst_29_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 25, val_main_v99 (F := Ideal) x0 x1 (idx_main_v100 (idx_main_v101 (ix2 b (0 : Fin 1))) k)
      = scores x0 x1 b ⟨50 + k.val, by have := k.isLt; omega⟩ := fun k => by
    rw [val_main_v99_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 50 25 (by decide) (scores x0 x1 b)).trans
    (Finset.sum_congr rfl fun r _ => if_congr Iff.rfl rfl rfl)

/-- Column 12: regions 50 … 99. -/
theorem col_12 : val_main_v110 (F := Ideal) x0 x1 (ix2 b (0 : Fin 1))
    = SegPool.outR Cert.Consts.six (SegPool.inSeg (⟨12, by decide⟩ : Fin 21)) (scores x0 x1 b) := by
  rw [val_main_v110_apply, val_main_v108_apply, val_main_v107_apply, val_main_v106_apply, val_main_cst_30_apply,
    val_main_v109_apply, val_main_cst_31_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 50, val_main_v105 (F := Ideal) x0 x1 (idx_main_v106 (idx_main_v107 (ix2 b (0 : Fin 1))) k)
      = scores x0 x1 b ⟨50 + k.val, by have := k.isLt; omega⟩ := fun k => by
    rw [val_main_v105_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 50 50 (by decide) (scores x0 x1 b)).trans
    (Finset.sum_congr rfl fun r _ => if_congr Iff.rfl rfl rfl)

/-- Column 13: regions 50 … 124. -/
theorem col_13 : val_main_v116 (F := Ideal) x0 x1 (ix2 b (0 : Fin 1))
    = SegPool.outR Cert.Consts.six (SegPool.inSeg (⟨13, by decide⟩ : Fin 21)) (scores x0 x1 b) := by
  rw [val_main_v116_apply, val_main_v114_apply, val_main_v113_apply, val_main_v112_apply, val_main_cst_32_apply,
    val_main_v115_apply, val_main_cst_33_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 75, val_main_v111 (F := Ideal) x0 x1 (idx_main_v112 (idx_main_v113 (ix2 b (0 : Fin 1))) k)
      = scores x0 x1 b ⟨50 + k.val, by have := k.isLt; omega⟩ := fun k => by
    rw [val_main_v111_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 50 75 (by decide) (scores x0 x1 b)).trans
    (Finset.sum_congr rfl fun r _ => if_congr Iff.rfl rfl rfl)

/-- Column 14: regions 50 … 149. -/
theorem col_14 : val_main_v122 (F := Ideal) x0 x1 (ix2 b (0 : Fin 1))
    = SegPool.outR Cert.Consts.six (SegPool.inSeg (⟨14, by decide⟩ : Fin 21)) (scores x0 x1 b) := by
  rw [val_main_v122_apply, val_main_v120_apply, val_main_v119_apply, val_main_v118_apply, val_main_cst_34_apply,
    val_main_v121_apply, val_main_cst_35_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 100, val_main_v117 (F := Ideal) x0 x1 (idx_main_v118 (idx_main_v119 (ix2 b (0 : Fin 1))) k)
      = scores x0 x1 b ⟨50 + k.val, by have := k.isLt; omega⟩ := fun k => by
    rw [val_main_v117_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 50 100 (by decide) (scores x0 x1 b)).trans
    (Finset.sum_congr rfl fun r _ => if_congr Iff.rfl rfl rfl)

/-- Column 15: regions 75 … 99. -/
theorem col_15 : val_main_v128 (F := Ideal) x0 x1 (ix2 b (0 : Fin 1))
    = SegPool.outR Cert.Consts.six (SegPool.inSeg (⟨15, by decide⟩ : Fin 21)) (scores x0 x1 b) := by
  rw [val_main_v128_apply, val_main_v126_apply, val_main_v125_apply, val_main_v124_apply, val_main_cst_36_apply,
    val_main_v127_apply, val_main_cst_37_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 25, val_main_v123 (F := Ideal) x0 x1 (idx_main_v124 (idx_main_v125 (ix2 b (0 : Fin 1))) k)
      = scores x0 x1 b ⟨75 + k.val, by have := k.isLt; omega⟩ := fun k => by
    rw [val_main_v123_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 75 25 (by decide) (scores x0 x1 b)).trans
    (Finset.sum_congr rfl fun r _ => if_congr Iff.rfl rfl rfl)

/-- Column 16: regions 75 … 124. -/
theorem col_16 : val_main_v134 (F := Ideal) x0 x1 (ix2 b (0 : Fin 1))
    = SegPool.outR Cert.Consts.six (SegPool.inSeg (⟨16, by decide⟩ : Fin 21)) (scores x0 x1 b) := by
  rw [val_main_v134_apply, val_main_v132_apply, val_main_v131_apply, val_main_v130_apply, val_main_cst_38_apply,
    val_main_v133_apply, val_main_cst_39_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 50, val_main_v129 (F := Ideal) x0 x1 (idx_main_v130 (idx_main_v131 (ix2 b (0 : Fin 1))) k)
      = scores x0 x1 b ⟨75 + k.val, by have := k.isLt; omega⟩ := fun k => by
    rw [val_main_v129_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 75 50 (by decide) (scores x0 x1 b)).trans
    (Finset.sum_congr rfl fun r _ => if_congr Iff.rfl rfl rfl)

/-- Column 17: regions 75 … 149. -/
theorem col_17 : val_main_v140 (F := Ideal) x0 x1 (ix2 b (0 : Fin 1))
    = SegPool.outR Cert.Consts.six (SegPool.inSeg (⟨17, by decide⟩ : Fin 21)) (scores x0 x1 b) := by
  rw [val_main_v140_apply, val_main_v138_apply, val_main_v137_apply, val_main_v136_apply, val_main_cst_40_apply,
    val_main_v139_apply, val_main_cst_41_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 75, val_main_v135 (F := Ideal) x0 x1 (idx_main_v136 (idx_main_v137 (ix2 b (0 : Fin 1))) k)
      = scores x0 x1 b ⟨75 + k.val, by have := k.isLt; omega⟩ := fun k => by
    rw [val_main_v135_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 75 75 (by decide) (scores x0 x1 b)).trans
    (Finset.sum_congr rfl fun r _ => if_congr Iff.rfl rfl rfl)

/-- Column 18: regions 100 … 124. -/
theorem col_18 : val_main_v146 (F := Ideal) x0 x1 (ix2 b (0 : Fin 1))
    = SegPool.outR Cert.Consts.six (SegPool.inSeg (⟨18, by decide⟩ : Fin 21)) (scores x0 x1 b) := by
  rw [val_main_v146_apply, val_main_v144_apply, val_main_v143_apply, val_main_v142_apply, val_main_cst_42_apply,
    val_main_v145_apply, val_main_cst_43_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 25, val_main_v141 (F := Ideal) x0 x1 (idx_main_v142 (idx_main_v143 (ix2 b (0 : Fin 1))) k)
      = scores x0 x1 b ⟨100 + k.val, by have := k.isLt; omega⟩ := fun k => by
    rw [val_main_v141_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 100 25 (by decide) (scores x0 x1 b)).trans
    (Finset.sum_congr rfl fun r _ => if_congr Iff.rfl rfl rfl)

/-- Column 19: regions 100 … 149. -/
theorem col_19 : val_main_v152 (F := Ideal) x0 x1 (ix2 b (0 : Fin 1))
    = SegPool.outR Cert.Consts.six (SegPool.inSeg (⟨19, by decide⟩ : Fin 21)) (scores x0 x1 b) := by
  rw [val_main_v152_apply, val_main_v150_apply, val_main_v149_apply, val_main_v148_apply, val_main_cst_44_apply,
    val_main_v151_apply, val_main_cst_45_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 50, val_main_v147 (F := Ideal) x0 x1 (idx_main_v148 (idx_main_v149 (ix2 b (0 : Fin 1))) k)
      = scores x0 x1 b ⟨100 + k.val, by have := k.isLt; omega⟩ := fun k => by
    rw [val_main_v147_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 100 50 (by decide) (scores x0 x1 b)).trans
    (Finset.sum_congr rfl fun r _ => if_congr Iff.rfl rfl rfl)

/-- Column 20: regions 125 … 149. -/
theorem col_20 : val_main_v158 (F := Ideal) x0 x1 (ix2 b (0 : Fin 1))
    = SegPool.outR Cert.Consts.six (SegPool.inSeg (⟨20, by decide⟩ : Fin 21)) (scores x0 x1 b) := by
  rw [val_main_v158_apply, val_main_v156_apply, val_main_v155_apply, val_main_v154_apply, val_main_cst_46_apply,
    val_main_v157_apply, val_main_cst_47_apply]
  unfold SegPool.outR SegPool.pool
  refine congrArg (fun x => Ideal.div (Ideal.log x) Cert.Consts.six) ?_
  show Ideal.ofBits .f32 0x00000000#32 + _ = _
  rw [Cert.Consts.ofBits_zero, zero_add]
  have hk : ∀ k : Fin 25, val_main_v153 (F := Ideal) x0 x1 (idx_main_v154 (idx_main_v155 (ix2 b (0 : Fin 1))) k)
      = scores x0 x1 b ⟨125 + k.val, by have := k.isLt; omega⟩ := fun k => by
    rw [val_main_v153_apply]
    exact congrArg (val_main_v33 (F := Ideal) x0 x1) (funext fun a => Fin.ext (by
      match a with
      | ⟨0, _⟩ => rfl
      | ⟨1, _⟩ => first | rfl | exact (Nat.zero_add _).symm))
  simp only [hk]
  exact (Cert.WindowSum.sum_window 125 25 (by decide) (scores x0 x1 b)).trans
    (Finset.sum_congr rfl fun r _ => if_congr Iff.rfl rfl rfl)

/-! ## The columns laid side by side -/

theorem cat16_0 : val_main_v159 (F := Ideal) x0 x1 (ix2 b (⟨0, by decide⟩ : Fin 16))
    = val_main_v39 (F := Ideal) x0 x1 (ix2 b (0 : Fin 1)) := by
  unfold val_main_v159
  refine concatenate_apply_piece (1 : Fin 2) _ _ (ix2 b (⟨0, by decide⟩ : Fin 16)) 0 ?_ S256x1
    (val_main_v39 (F := Ideal) x0 x1) ?_ rfl 0 ?_ (ix2 b (0 : Fin 1)) ?_ ?_
  · exact (by decide : 0 < 16)
  · rfl
  · rfl
  · intro a ha
    match a with
    | ⟨0, _⟩ => rfl
    | ⟨1, _⟩ => exact absurd rfl ha
  · rfl

theorem cat16_1 : val_main_v159 (F := Ideal) x0 x1 (ix2 b (⟨1, by decide⟩ : Fin 16))
    = val_main_v45 (F := Ideal) x0 x1 (ix2 b (0 : Fin 1)) := by
  unfold val_main_v159
  refine concatenate_apply_piece (1 : Fin 2) _ _ (ix2 b (⟨1, by decide⟩ : Fin 16)) 1 ?_ S256x1
    (val_main_v45 (F := Ideal) x0 x1) ?_ rfl 1 ?_ (ix2 b (0 : Fin 1)) ?_ ?_
  · exact (by decide : 1 < 16)
  · rfl
  · rfl
  · intro a ha
    match a with
    | ⟨0, _⟩ => rfl
    | ⟨1, _⟩ => exact absurd rfl ha
  · rfl

theorem cat16_2 : val_main_v159 (F := Ideal) x0 x1 (ix2 b (⟨2, by decide⟩ : Fin 16))
    = val_main_v51 (F := Ideal) x0 x1 (ix2 b (0 : Fin 1)) := by
  unfold val_main_v159
  refine concatenate_apply_piece (1 : Fin 2) _ _ (ix2 b (⟨2, by decide⟩ : Fin 16)) 2 ?_ S256x1
    (val_main_v51 (F := Ideal) x0 x1) ?_ rfl 2 ?_ (ix2 b (0 : Fin 1)) ?_ ?_
  · exact (by decide : 2 < 16)
  · rfl
  · rfl
  · intro a ha
    match a with
    | ⟨0, _⟩ => rfl
    | ⟨1, _⟩ => exact absurd rfl ha
  · rfl

theorem cat16_3 : val_main_v159 (F := Ideal) x0 x1 (ix2 b (⟨3, by decide⟩ : Fin 16))
    = val_main_v57 (F := Ideal) x0 x1 (ix2 b (0 : Fin 1)) := by
  unfold val_main_v159
  refine concatenate_apply_piece (1 : Fin 2) _ _ (ix2 b (⟨3, by decide⟩ : Fin 16)) 3 ?_ S256x1
    (val_main_v57 (F := Ideal) x0 x1) ?_ rfl 3 ?_ (ix2 b (0 : Fin 1)) ?_ ?_
  · exact (by decide : 3 < 16)
  · rfl
  · rfl
  · intro a ha
    match a with
    | ⟨0, _⟩ => rfl
    | ⟨1, _⟩ => exact absurd rfl ha
  · rfl

theorem cat16_4 : val_main_v159 (F := Ideal) x0 x1 (ix2 b (⟨4, by decide⟩ : Fin 16))
    = val_main_v63 (F := Ideal) x0 x1 (ix2 b (0 : Fin 1)) := by
  unfold val_main_v159
  refine concatenate_apply_piece (1 : Fin 2) _ _ (ix2 b (⟨4, by decide⟩ : Fin 16)) 4 ?_ S256x1
    (val_main_v63 (F := Ideal) x0 x1) ?_ rfl 4 ?_ (ix2 b (0 : Fin 1)) ?_ ?_
  · exact (by decide : 4 < 16)
  · rfl
  · rfl
  · intro a ha
    match a with
    | ⟨0, _⟩ => rfl
    | ⟨1, _⟩ => exact absurd rfl ha
  · rfl

theorem cat16_5 : val_main_v159 (F := Ideal) x0 x1 (ix2 b (⟨5, by decide⟩ : Fin 16))
    = val_main_v68 (F := Ideal) x0 x1 (ix2 b (0 : Fin 1)) := by
  unfold val_main_v159
  refine concatenate_apply_piece (1 : Fin 2) _ _ (ix2 b (⟨5, by decide⟩ : Fin 16)) 5 ?_ S256x1
    (val_main_v68 (F := Ideal) x0 x1) ?_ rfl 5 ?_ (ix2 b (0 : Fin 1)) ?_ ?_
  · exact (by decide : 5 < 16)
  · rfl
  · rfl
  · intro a ha
    match a with
    | ⟨0, _⟩ => rfl
    | ⟨1, _⟩ => exact absurd rfl ha
  · rfl

theorem cat16_6 : val_main_v159 (F := Ideal) x0 x1 (ix2 b (⟨6, by decide⟩ : Fin 16))
    = val_main_v74 (F := Ideal) x0 x1 (ix2 b (0 : Fin 1)) := by
  unfold val_main_v159
  refine concatenate_apply_piece (1 : Fin 2) _ _ (ix2 b (⟨6, by decide⟩ : Fin 16)) 6 ?_ S256x1
    (val_main_v74 (F := Ideal) x0 x1) ?_ rfl 6 ?_ (ix2 b (0 : Fin 1)) ?_ ?_
  · exact (by decide : 6 < 16)
  · rfl
  · rfl
  · intro a ha
    match a with
    | ⟨0, _⟩ => rfl
    | ⟨1, _⟩ => exact absurd rfl ha
  · rfl

theorem cat16_7 : val_main_v159 (F := Ideal) x0 x1 (ix2 b (⟨7, by decide⟩ : Fin 16))
    = val_main_v80 (F := Ideal) x0 x1 (ix2 b (0 : Fin 1)) := by
  unfold val_main_v159
  refine concatenate_apply_piece (1 : Fin 2) _ _ (ix2 b (⟨7, by decide⟩ : Fin 16)) 7 ?_ S256x1
    (val_main_v80 (F := Ideal) x0 x1) ?_ rfl 7 ?_ (ix2 b (0 : Fin 1)) ?_ ?_
  · exact (by decide : 7 < 16)
  · rfl
  · rfl
  · intro a ha
    match a with
    | ⟨0, _⟩ => rfl
    | ⟨1, _⟩ => exact absurd rfl ha
  · rfl

theorem cat16_8 : val_main_v159 (F := Ideal) x0 x1 (ix2 b (⟨8, by decide⟩ : Fin 16))
    = val_main_v86 (F := Ideal) x0 x1 (ix2 b (0 : Fin 1)) := by
  unfold val_main_v159
  refine concatenate_apply_piece (1 : Fin 2) _ _ (ix2 b (⟨8, by decide⟩ : Fin 16)) 8 ?_ S256x1
    (val_main_v86 (F := Ideal) x0 x1) ?_ rfl 8 ?_ (ix2 b (0 : Fin 1)) ?_ ?_
  · exact (by decide : 8 < 16)
  · rfl
  · rfl
  · intro a ha
    match a with
    | ⟨0, _⟩ => rfl
    | ⟨1, _⟩ => exact absurd rfl ha
  · rfl

theorem cat16_9 : val_main_v159 (F := Ideal) x0 x1 (ix2 b (⟨9, by decide⟩ : Fin 16))
    = val_main_v92 (F := Ideal) x0 x1 (ix2 b (0 : Fin 1)) := by
  unfold val_main_v159
  refine concatenate_apply_piece (1 : Fin 2) _ _ (ix2 b (⟨9, by decide⟩ : Fin 16)) 9 ?_ S256x1
    (val_main_v92 (F := Ideal) x0 x1) ?_ rfl 9 ?_ (ix2 b (0 : Fin 1)) ?_ ?_
  · exact (by decide : 9 < 16)
  · rfl
  · rfl
  · intro a ha
    match a with
    | ⟨0, _⟩ => rfl
    | ⟨1, _⟩ => exact absurd rfl ha
  · rfl

theorem cat16_10 : val_main_v159 (F := Ideal) x0 x1 (ix2 b (⟨10, by decide⟩ : Fin 16))
    = val_main_v98 (F := Ideal) x0 x1 (ix2 b (0 : Fin 1)) := by
  unfold val_main_v159
  refine concatenate_apply_piece (1 : Fin 2) _ _ (ix2 b (⟨10, by decide⟩ : Fin 16)) 10 ?_ S256x1
    (val_main_v98 (F := Ideal) x0 x1) ?_ rfl 10 ?_ (ix2 b (0 : Fin 1)) ?_ ?_
  · exact (by decide : 10 < 16)
  · rfl
  · rfl
  · intro a ha
    match a with
    | ⟨0, _⟩ => rfl
    | ⟨1, _⟩ => exact absurd rfl ha
  · rfl

theorem cat16_11 : val_main_v159 (F := Ideal) x0 x1 (ix2 b (⟨11, by decide⟩ : Fin 16))
    = val_main_v104 (F := Ideal) x0 x1 (ix2 b (0 : Fin 1)) := by
  unfold val_main_v159
  refine concatenate_apply_piece (1 : Fin 2) _ _ (ix2 b (⟨11, by decide⟩ : Fin 16)) 11 ?_ S256x1
    (val_main_v104 (F := Ideal) x0 x1) ?_ rfl 11 ?_ (ix2 b (0 : Fin 1)) ?_ ?_
  · exact (by decide : 11 < 16)
  · rfl
  · rfl
  · intro a ha
    match a with
    | ⟨0, _⟩ => rfl
    | ⟨1, _⟩ => exact absurd rfl ha
  · rfl

set_option maxHeartbeats 2000000 in
theorem cat16_12 : val_main_v159 (F := Ideal) x0 x1 (ix2 b (⟨12, by decide⟩ : Fin 16))
    = val_main_v110 (F := Ideal) x0 x1 (ix2 b (0 : Fin 1)) := by
  unfold val_main_v159
  refine concatenate_apply_piece (1 : Fin 2) _ _ (ix2 b (⟨12, by decide⟩ : Fin 16)) 12 ?_ S256x1
    (val_main_v110 (F := Ideal) x0 x1) ?_ rfl 12 ?_ (ix2 b (0 : Fin 1)) ?_ ?_
  · exact (by decide : 12 < 16)
  · rfl
  · rfl
  · intro a ha
    match a with
    | ⟨0, _⟩ => rfl
    | ⟨1, _⟩ => exact absurd rfl ha
  · rfl

set_option maxHeartbeats 2000000 in
theorem cat16_13 : val_main_v159 (F := Ideal) x0 x1 (ix2 b (⟨13, by decide⟩ : Fin 16))
    = val_main_v116 (F := Ideal) x0 x1 (ix2 b (0 : Fin 1)) := by
  unfold val_main_v159
  refine concatenate_apply_piece (1 : Fin 2) _ _ (ix2 b (⟨13, by decide⟩ : Fin 16)) 13 ?_ S256x1
    (val_main_v116 (F := Ideal) x0 x1) ?_ rfl 13 ?_ (ix2 b (0 : Fin 1)) ?_ ?_
  · exact (by decide : 13 < 16)
  · rfl
  · rfl
  · intro a ha
    match a with
    | ⟨0, _⟩ => rfl
    | ⟨1, _⟩ => exact absurd rfl ha
  · rfl

set_option maxHeartbeats 2000000 in
theorem cat16_14 : val_main_v159 (F := Ideal) x0 x1 (ix2 b (⟨14, by decide⟩ : Fin 16))
    = val_main_v122 (F := Ideal) x0 x1 (ix2 b (0 : Fin 1)) := by
  unfold val_main_v159
  refine concatenate_apply_piece (1 : Fin 2) _ _ (ix2 b (⟨14, by decide⟩ : Fin 16)) 14 ?_ S256x1
    (val_main_v122 (F := Ideal) x0 x1) ?_ rfl 14 ?_ (ix2 b (0 : Fin 1)) ?_ ?_
  · exact (by decide : 14 < 16)
  · rfl
  · rfl
  · intro a ha
    match a with
    | ⟨0, _⟩ => rfl
    | ⟨1, _⟩ => exact absurd rfl ha
  · rfl

set_option maxHeartbeats 2000000 in
theorem cat16_15 : val_main_v159 (F := Ideal) x0 x1 (ix2 b (⟨15, by decide⟩ : Fin 16))
    = val_main_v128 (F := Ideal) x0 x1 (ix2 b (0 : Fin 1)) := by
  unfold val_main_v159
  refine concatenate_apply_piece (1 : Fin 2) _ _ (ix2 b (⟨15, by decide⟩ : Fin 16)) 15 ?_ S256x1
    (val_main_v128 (F := Ideal) x0 x1) ?_ rfl 15 ?_ (ix2 b (0 : Fin 1)) ?_ ?_
  · exact (by decide : 15 < 16)
  · rfl
  · rfl
  · intro a ha
    match a with
    | ⟨0, _⟩ => rfl
    | ⟨1, _⟩ => exact absurd rfl ha
  · rfl

theorem cat5_0 : val_main_v160 (F := Ideal) x0 x1 (ix2 b (⟨0, by decide⟩ : Fin 5))
    = val_main_v134 (F := Ideal) x0 x1 (ix2 b (0 : Fin 1)) := by
  unfold val_main_v160
  refine concatenate_apply_piece (1 : Fin 2) _ _ (ix2 b (⟨0, by decide⟩ : Fin 5)) 0 ?_ S256x1
    (val_main_v134 (F := Ideal) x0 x1) ?_ rfl 0 ?_ (ix2 b (0 : Fin 1)) ?_ ?_
  · exact (by decide : 0 < 5)
  · rfl
  · rfl
  · intro a ha
    match a with
    | ⟨0, _⟩ => rfl
    | ⟨1, _⟩ => exact absurd rfl ha
  · rfl

theorem cat5_1 : val_main_v160 (F := Ideal) x0 x1 (ix2 b (⟨1, by decide⟩ : Fin 5))
    = val_main_v140 (F := Ideal) x0 x1 (ix2 b (0 : Fin 1)) := by
  unfold val_main_v160
  refine concatenate_apply_piece (1 : Fin 2) _ _ (ix2 b (⟨1, by decide⟩ : Fin 5)) 1 ?_ S256x1
    (val_main_v140 (F := Ideal) x0 x1) ?_ rfl 1 ?_ (ix2 b (0 : Fin 1)) ?_ ?_
  · exact (by decide : 1 < 5)
  · rfl
  · rfl
  · intro a ha
    match a with
    | ⟨0, _⟩ => rfl
    | ⟨1, _⟩ => exact absurd rfl ha
  · rfl

theorem cat5_2 : val_main_v160 (F := Ideal) x0 x1 (ix2 b (⟨2, by decide⟩ : Fin 5))
    = val_main_v146 (F := Ideal) x0 x1 (ix2 b (0 : Fin 1)) := by
  unfold val_main_v160
  refine concatenate_apply_piece (1 : Fin 2) _ _ (ix2 b (⟨2, by decide⟩ : Fin 5)) 2 ?_ S256x1
    (val_main_v146 (F := Ideal) x0 x1) ?_ rfl 2 ?_ (ix2 b (0 : Fin 1)) ?_ ?_
  · exact (by decide : 2 < 5)
  · rfl
  · rfl
  · intro a ha
    match a with
    | ⟨0, _⟩ => rfl
    | ⟨1, _⟩ => exact absurd rfl ha
  · rfl

theorem cat5_3 : val_main_v160 (F := Ideal) x0 x1 (ix2 b (⟨3, by decide⟩ : Fin 5))
    = val_main_v152 (F := Ideal) x0 x1 (ix2 b (0 : Fin 1)) := by
  unfold val_main_v160
  refine concatenate_apply_piece (1 : Fin 2) _ _ (ix2 b (⟨3, by decide⟩ : Fin 5)) 3 ?_ S256x1
    (val_main_v152 (F := Ideal) x0 x1) ?_ rfl 3 ?_ (ix2 b (0 : Fin 1)) ?_ ?_
  · exact (by decide : 3 < 5)
  · rfl
  · rfl
  · intro a ha
    match a with
    | ⟨0, _⟩ => rfl
    | ⟨1, _⟩ => exact absurd rfl ha
  · rfl

theorem cat5_4 : val_main_v160 (F := Ideal) x0 x1 (ix2 b (⟨4, by decide⟩ : Fin 5))
    = val_main_v158 (F := Ideal) x0 x1 (ix2 b (0 : Fin 1)) := by
  unfold val_main_v160
  refine concatenate_apply_piece (1 : Fin 2) _ _ (ix2 b (⟨4, by decide⟩ : Fin 5)) 4 ?_ S256x1
    (val_main_v158 (F := Ideal) x0 x1) ?_ rfl 4 ?_ (ix2 b (0 : Fin 1)) ?_ ?_
  · exact (by decide : 4 < 5)
  · rfl
  · rfl
  · intro a ha
    match a with
    | ⟨0, _⟩ => rfl
    | ⟨1, _⟩ => exact absurd rfl ha
  · rfl

/-- A column of the first group in the joined array. -/
theorem out_left (c : Fin 16) : val_main_v161 (F := Ideal) x0 x1 (ix2 b (⟨c.val, by have := c.isLt; omega⟩ : Fin 21))
    = val_main_v159 (F := Ideal) x0 x1 (ix2 b c) := by
  unfold val_main_v161
  exact Cert.Dense.concatCols2_left _ _ _ b c _

/-- A column of the second group in the joined array: sixteen columns to the right. -/
theorem out_right (c : Fin 5) : val_main_v161 (F := Ideal) x0 x1 (ix2 b (⟨16 + c.val, by have := c.isLt; omega⟩ : Fin 21))
    = val_main_v160 (F := Ideal) x0 x1 (ix2 b c) := by
  unfold val_main_v161
  exact Cert.Dense.concatCols2_right _ _ _ b c _

/-- Entry `(b, s)` of the result: segment `s` pooled over the exponentiated scores of batch entry `b`. -/
theorem out_apply (s : Fin 21) : val_main_v161 (F := Ideal) x0 x1 (ix2 b s)
    = SegPool.outR Cert.Consts.six (SegPool.inSeg s) (scores x0 x1 b) := by
  match s with
  | ⟨0, _⟩ => exact (out_left x0 x1 b ⟨0, by decide⟩).trans ((cat16_0 x0 x1 b).trans (col_0 x0 x1 b))
  | ⟨1, _⟩ => exact (out_left x0 x1 b ⟨1, by decide⟩).trans ((cat16_1 x0 x1 b).trans (col_1 x0 x1 b))
  | ⟨2, _⟩ => exact (out_left x0 x1 b ⟨2, by decide⟩).trans ((cat16_2 x0 x1 b).trans (col_2 x0 x1 b))
  | ⟨3, _⟩ => exact (out_left x0 x1 b ⟨3, by decide⟩).trans ((cat16_3 x0 x1 b).trans (col_3 x0 x1 b))
  | ⟨4, _⟩ => exact (out_left x0 x1 b ⟨4, by decide⟩).trans ((cat16_4 x0 x1 b).trans (col_4 x0 x1 b))
  | ⟨5, _⟩ => exact (out_left x0 x1 b ⟨5, by decide⟩).trans ((cat16_5 x0 x1 b).trans (col_5 x0 x1 b))
  | ⟨6, _⟩ => exact (out_left x0 x1 b ⟨6, by decide⟩).trans ((cat16_6 x0 x1 b).trans (col_6 x0 x1 b))
  | ⟨7, _⟩ => exact (out_left x0 x1 b ⟨7, by decide⟩).trans ((cat16_7 x0 x1 b).trans (col_7 x0 x1 b))
  | ⟨8, _⟩ => exact (out_left x0 x1 b ⟨8, by decide⟩).trans ((cat16_8 x0 x1 b).trans (col_8 x0 x1 b))
  | ⟨9, _⟩ => exact (out_left x0 x1 b ⟨9, by decide⟩).trans ((cat16_9 x0 x1 b).trans (col_9 x0 x1 b))
  | ⟨10, _⟩ => exact (out_left x0 x1 b ⟨10, by decide⟩).trans ((cat16_10 x0 x1 b).trans (col_10 x0 x1 b))
  | ⟨11, _⟩ => exact (out_left x0 x1 b ⟨11, by decide⟩).trans ((cat16_11 x0 x1 b).trans (col_11 x0 x1 b))
  | ⟨12, _⟩ => exact (out_left x0 x1 b ⟨12, by decide⟩).trans ((cat16_12 x0 x1 b).trans (col_12 x0 x1 b))
  | ⟨13, _⟩ => exact (out_left x0 x1 b ⟨13, by decide⟩).trans ((cat16_13 x0 x1 b).trans (col_13 x0 x1 b))
  | ⟨14, _⟩ => exact (out_left x0 x1 b ⟨14, by decide⟩).trans ((cat16_14 x0 x1 b).trans (col_14 x0 x1 b))
  | ⟨15, _⟩ => exact (out_left x0 x1 b ⟨15, by decide⟩).trans ((cat16_15 x0 x1 b).trans (col_15 x0 x1 b))
  | ⟨16, _⟩ => exact (out_right x0 x1 b ⟨0, by decide⟩).trans ((cat5_0 x0 x1 b).trans (col_16 x0 x1 b))
  | ⟨17, _⟩ => exact (out_right x0 x1 b ⟨1, by decide⟩).trans ((cat5_1 x0 x1 b).trans (col_17 x0 x1 b))
  | ⟨18, _⟩ => exact (out_right x0 x1 b ⟨2, by decide⟩).trans ((cat5_2 x0 x1 b).trans (col_18 x0 x1 b))
  | ⟨19, _⟩ => exact (out_right x0 x1 b ⟨3, by decide⟩).trans ((cat5_3 x0 x1 b).trans (col_19 x0 x1 b))
  | ⟨20, _⟩ => exact (out_right x0 x1 b ⟨4, by decide⟩).trans ((cat5_4 x0 x1 b).trans (col_20 x0 x1 b))
  | ⟨n + 21, h⟩ => exact absurd h (by omega)

/-- Entry `(b, s)` of the result, each region's score in the arrangement that forms the attended sentence. -/
theorem result_apply (s : Fin 21) : val_main_v161 (F := Ideal) x0 x1 (ix2 b s)
    = SegPool.outR Cert.Consts.six (SegPool.inSeg s) (fun r =>
        SegPool.rowR Cert.Consts.six Cert.Consts.eps (RowValue.row x0 b r) (RowValue.words x1)) := by
  rw [out_apply]
  exact congrArg _ (funext fun r => RowValue.expScore_apply x0 x1 b r)

end Cert.ReferenceIdeal.OutValue

end
-- ==== Proof.SegPoolLaws.lean ====
/-
  The two arrangements of the segment pooling agree on real inputs.

  All inputs are real numbers read in the extended reals. The argument has four parts.

  1. Every intermediate quantity is a real number: a sum of squares is non-negative, so its root is real; the
     product of two norms, kept at 'ε > 0' or above, is a positive real, so every quotient is by a non-zero real;
     the largest of finitely many reals over a non-empty index set is a real, so the exponentials under the softmax
     are of reals and their sum is a positive real. Hence the attention weights 'a w' are reals. They are the same
     in both arrangements, because the transposed word matrix gives the same inner products and the given word
     norms are the words' norms.
  2. With real weights 'a', writing 'ss d = Σ_w a w · D w d' for the attended sentence,
     'Σ_w a w · ⟨v, D w⟩ = ⟨v, ss⟩' and 'Σ_w (Σ_w' a w' · G w' w) · a w = Σ_d (ss d)² ≥ 0' for the Gram matrix
     'G w' w = ⟨D w', D w⟩': the clamp at zero before the root does nothing, and the two rows' exponentiated scores
     are one and the same real 'E'.
  3. By the Cauchy-Schwarz inequality '|⟨v, ss⟩| ≤ |v| · |ss| ≤ max (|v| · |ss|) ε', so the cosine is at least '-1'
     and 'E ≥ exp (-6)'.
  4. A segment with at least one region therefore has a sum of at least 'exp (-6) ≥ c30', and the clamp of the sum
     at 'c30' under the logarithm does nothing either.
-/
import proofs.«101303_j84061099917852_2_alg».proof.Proof.SegPoolSpec
import Mathlib.Analysis.Complex.ExponentialBounds
import Mathlib.Analysis.Real.Sqrt

noncomputable section

namespace SegPool

open Idealize.ShloMosaic

section Laws

variable {ι κ ρ : Type} [Fintype ι] [Fintype κ] [Fintype ρ]

/-! ### Reals inside the extended reals -/

/-- The inclusion of the reals in the extended reals commutes with finite sums. -/
theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals in the extended reals is monotone, so it commutes with the larger of two. -/
theorem coe_max (x y : ℝ) : ((max x y : ℝ) : EReal) = max (x : EReal) (y : EReal) :=
  EReal.coe_strictMono.monotone.map_max

/-! ### Each quantity of the specification, at real arguments, is a named real -/

/-- The norm of a real row is the real root of its sum of squares: the sum is non-negative. -/
theorem norm_coe (v : ι → ℝ) :
    norm (fun d => (v d : EReal)) = ((Real.sqrt (∑ d, v d * v d) : ℝ) : EReal) := by
  unfold norm
  simp only [← EReal.coe_mul, ← coe_sum]
  rw [Ideal.sqrt_coe, if_neg (not_lt.mpr (Finset.sum_nonneg fun d _ => mul_self_nonneg (v d)))]

/-- The inner products of a real row with real words are real. -/
theorem dotsR_coe (v : ι → ℝ) (D : κ → ι → ℝ) (w : κ) :
    dotsR (fun d => (v d : EReal)) (fun w d => (D w d : EReal)) w = ((∑ d, v d * D w d : ℝ) : EReal) := by
  unfold dotsR
  simp only [← EReal.coe_mul, ← coe_sum]

/-- A cosine of real data is real: the divisor 'max (nv · nw w) e' is at least 'e > 0', so it is not zero and the
    quotient is the product with the reciprocal. -/
theorem score_coe {e : ℝ} (he : 0 < e) (nv : ℝ) (nw dots : κ → ℝ) (w : κ) :
    score (e : EReal) (nv : EReal) (fun w => (nw w : EReal)) (fun w => (dots w : EReal)) w
      = ((dots w * (1 / max (nv * nw w) e) : ℝ) : EReal) := by
  unfold score
  rw [← EReal.coe_mul, ← coe_max, Ideal.div_coe (ne_of_gt (lt_max_of_lt_right he)), ← EReal.coe_mul]

/-- The peak of finitely many reals over a non-empty index set is one of them, hence a real. (The fold of 'max'
    from '-∞' is the finite supremum, which a non-empty finite family in a linear order attains.) -/
theorem peak_coe [Nonempty κ] (f : κ → ℝ) : ∃ M : ℝ, peak (fun w => (f w : EReal)) = (M : EReal) := by
  unfold peak
  rw [max_eq_right bot_le]
  obtain ⟨i, -, hi⟩ := Finset.exists_mem_eq_sup Finset.univ Finset.univ_nonempty (fun w => (f w : EReal))
  exact ⟨f i, hi⟩

/-- The softmax of real values is real-valued: with the peak a real 'M', each exponential 'exp (f w - M)' is a
    positive real, so their sum is a positive real and the quotient is by a non-zero real. Which real the peak is
    plays no part. -/
theorem softmax_coe [Nonempty κ] (f : κ → ℝ) :
    ∃ a : κ → ℝ, softmax (fun w => (f w : EReal)) = fun w => (a w : EReal) := by
  obtain ⟨M, hM⟩ := peak_coe f
  refine ⟨fun w => Real.exp (f w - M) * (1 / ∑ w', Real.exp (f w' - M)), ?_⟩
  funext w
  unfold softmax
  rw [hM]
  simp only [← EReal.coe_sub, Ideal.exp_coe, ← coe_sum]
  rw [Ideal.div_coe (ne_of_gt (Finset.sum_pos (fun w' _ => Real.exp_pos _) Finset.univ_nonempty)),
    ← EReal.coe_mul]

/-- The attention weights from real norms and real inner products are real. -/
theorem attn_coe [Nonempty κ] {e : ℝ} (he : 0 < e) (nv : ℝ) (nw dots : κ → ℝ) :
    ∃ a : κ → ℝ, attn (e : EReal) (nv : EReal) (fun w => (nw w : EReal)) (fun w => (dots w : EReal))
      = fun w => (a w : EReal) := by
  unfold attn
  have h : score (e : EReal) (nv : EReal) (fun w => (nw w : EReal)) (fun w => (dots w : EReal))
      = fun w => ((dots w * (1 / max (nv * nw w) e) : ℝ) : EReal) := funext (score_coe he nv nw dots)
  rw [h]
  exact softmax_coe _

/-- The attention weights of a real row against real words are real. -/
theorem attnR_coe [Nonempty κ] {e : ℝ} (he : 0 < e) (v : ι → ℝ) (D : κ → ι → ℝ) :
    ∃ a : κ → ℝ, attnR (e : EReal) (fun d => (v d : EReal)) (fun w d => (D w d : EReal))
      = fun w => (a w : EReal) := by
  unfold attnR
  have h1 : (fun w => norm (fun d => (D w d : EReal)))
      = fun w => ((Real.sqrt (∑ d, D w d * D w d) : ℝ) : EReal) := funext fun w => norm_coe (D w)
  have h2 : dotsR (fun d => (v d : EReal)) (fun w d => (D w d : EReal))
      = fun w => ((∑ d, v d * D w d : ℝ) : EReal) := funext (dotsR_coe v D)
  rw [norm_coe, h1, h2]
  exact attn_coe he _ _ _

/-! ### The two arrangements have the same attention weights -/

/-- The inner products do not depend on whether the word matrix is given row by row or transposed. -/
theorem dotsK_eq_dotsR (v : ι → EReal) (D : κ → ι → EReal) (Dt : ι → κ → EReal)
    (hDt : ∀ d w, Dt d w = D w d) : dotsK v Dt = dotsR v D := by
  funext w
  unfold dotsK dotsR
  simp only [hDt]

/-- With the transposed matrix the transpose of the words and the given norms the words' norms, the weights of
    the two arrangements are the same function. No arithmetic is involved. -/
theorem attnK_eq_attnR (ε : EReal) (v : ι → EReal) (D : κ → ι → EReal) (Dt : ι → κ → EReal)
    (nw : κ → EReal) (hDt : ∀ d w, Dt d w = D w d) (hnw : ∀ w, nw w = norm (D w)) :
    attnK ε v Dt nw = attnR ε v D := by
  unfold attnK attnR
  have h1 : nw = fun w => norm (D w) := funext hnw
  rw [h1, dotsK_eq_dotsR v D Dt hDt]

/-! ### Real algebra: the attended sentence never needs to be formed -/

/-- 'Σ_w a w · ⟨v, D w⟩ = ⟨v, Σ_w a w · D w⟩': exchange the two finite sums. -/
theorem sum_weights_dots (a : κ → ℝ) (v : ι → ℝ) (D : κ → ι → ℝ) :
    ∑ w, a w * ∑ d, v d * D w d = ∑ d, v d * ∑ w, a w * D w d := by
  simp only [Finset.mul_sum]
  rw [Finset.sum_comm]
  exact Finset.sum_congr rfl fun d _ => Finset.sum_congr rfl fun w _ => by ring

/-- The quadratic form of the Gram matrix at the weights is the squared norm of the mixture:
    'Σ_w (Σ_w' a w' · ⟨D w', D w⟩) · a w = Σ_d (Σ_w a w · D w d)²'. -/
theorem gram_quadratic (a : κ → ℝ) (D : κ → ι → ℝ) :
    ∑ w, (∑ w', a w' * ∑ d, D w' d * D w d) * a w
      = ∑ d, (∑ w, a w * D w d) * (∑ w, a w * D w d) := by
  have h : ∀ w, (∑ w', a w' * ∑ d, D w' d * D w d) * a w
      = ∑ d, (a w * D w d) * ∑ w', a w' * D w' d := by
    intro w
    simp only [Finset.mul_sum, Finset.sum_mul]
    rw [Finset.sum_comm]
    exact Finset.sum_congr rfl fun d _ => Finset.sum_congr rfl fun w' _ => by ring
  simp only [h]
  rw [Finset.sum_comm]
  exact Finset.sum_congr rfl fun d _ => by rw [← Finset.sum_mul]

/-! ### The cosine is at least '-1' -/

/-- The Cauchy-Schwarz inequality with roots, on both sides: '|⟨v, s⟩| ≤ |v| · |s|'. The lower side is the upper
    side for '-v'. -/
theorem abs_inner_le (v s : ι → ℝ) :
    |∑ d, v d * s d| ≤ Real.sqrt (∑ d, v d * v d) * Real.sqrt (∑ d, s d * s d) := by
  have h := Real.sum_mul_le_sqrt_mul_sqrt Finset.univ v s
  have h' := Real.sum_mul_le_sqrt_mul_sqrt Finset.univ (fun d => - v d) s
  simp only [neg_mul, Finset.sum_neg_distrib, neg_sq] at h'
  simp only [pow_two] at h h'
  rw [abs_le]
  constructor <;> linarith

/-- If '|d2| ≤ nv · ns' then 'd2 / max (nv · ns) e ≥ -1' (the divisor is positive and at least '|d2|'), so the
    exponential of six times the quotient is at least 'exp (-6)'. -/
theorem exp_score_ge {e : ℝ} (he : 0 < e) {nv ns d2 : ℝ} (h : |d2| ≤ nv * ns) :
    Real.exp (-6) ≤ Real.exp (d2 * (1 / max (nv * ns) e) * 6) := by
  apply Real.exp_le_exp.mpr
  have hN : 0 < max (nv * ns) e := lt_max_of_lt_right he
  have h1 : -(max (nv * ns) e) ≤ d2 := by
    have h2 := (abs_le.mp h).1
    have h3 := le_max_left (nv * ns) e
    linarith
  have h2 : -1 ≤ d2 * (1 / max (nv * ns) e) := by
    rw [mul_one_div, le_div_iff₀ hN]
    linarith
  linarith

/-- The exponentiated score of real data is the real 'exp (d2 / max (nv · ns) e · 6)'. -/
theorem expScore_coe {e : ℝ} (he : 0 < e) (nv ns d2 : ℝ) :
    expScore ((6 : ℝ) : EReal) (e : EReal) (nv : EReal) (ns : EReal) (d2 : EReal)
      = ((Real.exp (d2 * (1 / max (nv * ns) e) * 6) : ℝ) : EReal) := by
  unfold expScore
  rw [← EReal.coe_mul, ← coe_max, Ideal.div_coe (ne_of_gt (lt_max_of_lt_right he)), ← EReal.coe_mul,
    ← EReal.coe_mul, Ideal.exp_coe]

/-! ### One row -/

/-- For a real row and real words the two arrangements give the same exponentiated score, a real 'E' with
    'E ≥ exp (-6)'. With the common real weights 'a' and the mixture 'ss d = Σ_w a w · D w d': both inner products
    are '⟨v, ss⟩', the Gram quadratic form is 'Σ_d (ss d)² ≥ 0' so its clamp at zero is itself and its root is the
    norm of 'ss', and the bound is Cauchy-Schwarz. -/
theorem row_eq [Nonempty κ] {e : ℝ} (he : 0 < e) (v : ι → ℝ) (D : κ → ι → ℝ)
    (Dt : ι → κ → EReal) (hDt : ∀ d w, Dt d w = (D w d : EReal))
    (G : κ → κ → EReal) (hG : ∀ w' w, G w' w = ∑ d, (D w' d : EReal) * (D w d : EReal))
    (nw : κ → EReal) (hnw : ∀ w, nw w = norm (fun d => (D w d : EReal))) :
    ∃ E : ℝ, Real.exp (-6) ≤ E ∧
      rowK ((6 : ℝ) : EReal) (e : EReal) (fun d => (v d : EReal)) Dt G nw = (E : EReal) ∧
      rowR ((6 : ℝ) : EReal) (e : EReal) (fun d => (v d : EReal)) (fun w d => (D w d : EReal))
        = (E : EReal) := by
  obtain ⟨a, ha⟩ := attnR_coe he v D
  have hK : attnK (e : EReal) (fun d => (v d : EReal)) Dt nw = fun w => (a w : EReal) :=
    (attnK_eq_attnR (e : EReal) (fun d => (v d : EReal)) (fun w d => (D w d : EReal)) Dt nw hDt hnw).trans ha
  -- the attended sentence is the real mixture
  have hmix : mixR (e : EReal) (fun d => (v d : EReal)) (fun w d => (D w d : EReal))
      = fun d => ((∑ w, a w * D w d : ℝ) : EReal) := by
    funext d
    unfold mixR
    rw [ha]
    simp only [← EReal.coe_mul, ← coe_sum]
  -- the inner product of the row with it, in the arrangement that forms it
  have hd2R : ∑ d, (v d : EReal) * mixR (e : EReal) (fun d => (v d : EReal)) (fun w d => (D w d : EReal)) d
      = ((∑ d, v d * ∑ w, a w * D w d : ℝ) : EReal) := by
    rw [hmix]
    simp only [← EReal.coe_mul, ← coe_sum]
  -- and in the arrangement that does not
  have hd2K : ∑ w, attnK (e : EReal) (fun d => (v d : EReal)) Dt nw w * dotsK (fun d => (v d : EReal)) Dt w
      = ((∑ d, v d * ∑ w, a w * D w d : ℝ) : EReal) := by
    rw [hK, dotsK_eq_dotsR (fun d => (v d : EReal)) (fun w d => (D w d : EReal)) Dt hDt]
    simp only [dotsR_coe, ← EReal.coe_mul, ← coe_sum]
    rw [sum_weights_dots]
  -- the clamped quadratic form is the mixture's sum of squares
  have hsq : mixSqK (e : EReal) (fun d => (v d : EReal)) Dt G nw
      = ((∑ d, (∑ w, a w * D w d) * (∑ w, a w * D w d) : ℝ) : EReal) := by
    unfold mixSqK
    rw [hK]
    simp only [hG, ← EReal.coe_mul, ← coe_sum]
    rw [gram_quadratic, ← EReal.coe_zero, ← coe_max,
      max_eq_left (Finset.sum_nonneg fun d _ => mul_self_nonneg _)]
  -- so its root is the mixture's norm
  have hns : Ideal.sqrt (mixSqK (e : EReal) (fun d => (v d : EReal)) Dt G nw)
      = norm (mixR (e : EReal) (fun d => (v d : EReal)) (fun w d => (D w d : EReal))) := by
    rw [hsq, hmix, norm_coe, Ideal.sqrt_coe,
      if_neg (not_lt.mpr (Finset.sum_nonneg fun d _ => mul_self_nonneg _))]
  refine ⟨Real.exp ((∑ d, v d * ∑ w, a w * D w d)
      * (1 / max (Real.sqrt (∑ d, v d * v d)
          * Real.sqrt (∑ d, (∑ w, a w * D w d) * (∑ w, a w * D w d))) e) * 6),
    exp_score_ge he (abs_inner_le v fun d => ∑ w, a w * D w d), ?_, ?_⟩
  · unfold rowK
    rw [hns, hd2K, hmix, norm_coe, norm_coe, expScore_coe he]
  · unfold rowR
    rw [hd2R, hmix, norm_coe, norm_coe, expScore_coe he]

end Laws

/-! ### The constant under the logarithm -/

/-- 'exp 6 = (exp 1)⁶ < 3⁶ = 729', so 'exp (-6) > 1/729', far above '10⁻³⁰'. -/
theorem c30_le_exp : ((1 / 1000000000000000000000000000000 : ℝ)) ≤ Real.exp (-6) := by
  have h6 : Real.exp 6 = Real.exp 1 ^ 6 := by
    rw [← Real.exp_nat_mul]
    norm_num
  have h3 : Real.exp 1 ^ 6 < 3 ^ 6 :=
    pow_lt_pow_left₀ Real.exp_one_lt_three (Real.exp_pos 1).le (by norm_num)
  rw [Real.exp_neg, ← one_div]
  apply one_div_le_one_div_of_le (Real.exp_pos 6)
  rw [h6]
  norm_num at h3 ⊢
  linarith

/-! ### The pooled scores agree -/

/-- Every region's exponentiated score is the same real 'E r ≥ exp (-6) ≥ c' in both arrangements. All terms of the
    segment's sum are non-negative and the segment has a region 'r0', so the sum is at least 'E r0 ≥ c': the larger of
    the sum and 'c30' is the sum, and the two pooled scores are the same expression. -/
theorem outK_eq_outR {ι κ ρ : Type} [Fintype ι] [Fintype κ] [Nonempty κ] [Fintype ρ]
    (six ε c30 : EReal) (hsix : six = ((6 : ℝ) : EReal))
    (e : ℝ) (he : 0 < e) (hε : ε = (e : EReal))
    (c : ℝ) (hc : c ≤ Real.exp (-6)) (hc30 : c30 = (c : EReal))
    (V : ρ → ι → ℝ) (D : κ → ι → ℝ)
    (Dt : ι → κ → EReal) (hDt : ∀ d w, Dt d w = (D w d : EReal))
    (G : κ → κ → EReal) (hG : ∀ w' w, G w' w = ∑ d, (D w' d : EReal) * (D w d : EReal))
    (nw : κ → EReal) (hnw : ∀ w, nw w = norm (fun d => (D w d : EReal)))
    (seg : ρ → Prop) [DecidablePred seg] (hseg : ∃ r, seg r) :
    outK six c30 seg (fun r => rowK six ε (fun d => (V r d : EReal)) Dt G nw)
      = outR six seg (fun r => rowR six ε (fun d => (V r d : EReal)) (fun w d => (D w d : EReal))) := by
  subst hsix hε hc30
  have hrow := fun r => row_eq he (V r) D Dt hDt G hG nw hnw
  choose E hE hK hR using hrow
  have hfK : (fun r => rowK ((6 : ℝ) : EReal) (e : EReal) (fun d => (V r d : EReal)) Dt G nw)
      = fun r => (E r : EReal) := funext hK
  have hfR : (fun r => rowR ((6 : ℝ) : EReal) (e : EReal) (fun d => (V r d : EReal))
      (fun w d => (D w d : EReal))) = fun r => (E r : EReal) := funext hR
  rw [hfK, hfR]
  unfold outK outR
  rw [max_eq_left]
  obtain ⟨r0, hr0⟩ := hseg
  unfold pool
  calc (c : EReal) ≤ (E r0 : EReal) := EReal.coe_le_coe_iff.mpr (hc.trans (hE r0))
    _ = (fun r => if seg r then (E r : EReal) else 0) r0 := (if_pos hr0).symm
    _ ≤ ∑ r, (fun r => if seg r then (E r : EReal) else 0) r :=
        Finset.single_le_sum (f := fun r => if seg r then (E r : EReal) else 0)
          (fun r _ => by
            show (0 : EReal) ≤ if seg r then (E r : EReal) else 0
            split_ifs
            · exact EReal.coe_nonneg.mpr (le_trans (Real.exp_pos _).le (hE r))
            · exact le_rfl)
          (Finset.mem_univ r0)

end SegPool

end
-- ==== Proof.Bridge.lean ====
/-
  The two arrangements of the pooled score agree on arrays of real numbers.

  For a batch entry `b` and a segment `s`, with both input arrays real-valued, the pooled score over the arrangement that
  forms the attended sentence equals the pooled score over the Gram-matrix arrangement, the latter given the transposed
  words, the words' Gram matrix and the words' norms computed from the same word array.
-/
import proofs.«101303_j84061099917852_2_alg».proof.Proof.SegPoolLaws
import proofs.«101303_j84061099917852_2_alg».proof.Proof.Consts
import Idealize.ShloMosaic.Lib.ValueIdx

noncomputable section

namespace Cert.Bridge

open Idealize.ShloMosaic Idealize.ShloMosaic.ValueIdx

/-- Every segment has a region. -/
theorem seg_nonempty : ∀ s : Fin 21, ∃ r : Fin 150, SegPool.inSeg s r := by
  unfold SegPool.inSeg
  decide

/-- The pooled scores of the two arrangements, over real arrays. -/
theorem pooled_eq (A0 : (⟨3, ![256, 150, 1024]⟩ : Shape).Idx → EReal) (A1 : (⟨3, ![1, 40, 1024]⟩ : Shape).Idx → EReal)
    (h0 : ∀ i, ∃ r : ℝ, A0 i = (r : EReal)) (h1 : ∀ i, ∃ r : ℝ, A1 i = (r : EReal)) (b : Fin 256) (s : Fin 21) :
    SegPool.outR Cert.Consts.six (SegPool.inSeg s) (fun r : Fin 150 =>
        SegPool.rowR Cert.Consts.six Cert.Consts.eps (fun d : Fin 1024 => A0 (ix3 b r d))
          (fun (w : Fin 40) (d : Fin 1024) => A1 (ix3 (0 : Fin 1) w d)))
      = SegPool.outK Cert.Consts.six Cert.Consts.c30 (SegPool.inSeg s) (fun r : Fin 150 =>
          SegPool.rowK Cert.Consts.six Cert.Consts.eps (fun d : Fin 1024 => A0 (ix3 b r d))
            (fun (d : Fin 1024) (w : Fin 40) => A1 (ix3 (0 : Fin 1) w d))
            (fun w' w : Fin 40 => ∑ d : Fin 1024, A1 (ix3 (0 : Fin 1) w' d) * A1 (ix3 (0 : Fin 1) w d))
            (fun w : Fin 40 => SegPool.norm (fun d : Fin 1024 => A1 (ix3 (0 : Fin 1) w d)))) := by
  choose X0 hX0 using h0
  choose X1 hX1 using h1
  obtain rfl : A0 = fun i => (X0 i : EReal) := funext hX0
  obtain rfl : A1 = fun i => (X1 i : EReal) := funext hX1
  obtain ⟨e, he, heps⟩ := Cert.Consts.eps_pos
  exact (SegPool.outK_eq_outR Cert.Consts.six Cert.Consts.eps Cert.Consts.c30 Cert.Consts.six_eq e he heps
    (1 / 1000000000000000000000000000000 : ℝ) SegPool.c30_le_exp rfl
    (fun (r : Fin 150) (d : Fin 1024) => X0 (ix3 b r d)) (fun (w : Fin 40) (d : Fin 1024) => X1 (ix3 (0 : Fin 1) w d))
    (fun d w => ((X1 (ix3 (0 : Fin 1) w d) : ℝ) : EReal)) (fun _ _ => rfl)
    (fun w' w => ∑ d : Fin 1024, ((X1 (ix3 (0 : Fin 1) w' d) : ℝ) : EReal) * ((X1 (ix3 (0 : Fin 1) w d) : ℝ) : EReal)) (fun _ _ => rfl)
    (fun w => SegPool.norm (fun d : Fin 1024 => ((X1 (ix3 (0 : Fin 1) w d) : ℝ) : EReal))) (fun _ => rfl)
    (SegPool.inSeg s) (seg_nonempty s)).symm

end Cert.Bridge

end
-- ==== Proof.FiniteInputs.lean ====
/-
  The precondition "every input is finite", read back at the extended reals.

  The precondition is the conjunction of two words, one for each input array: the conjunction, over all entries 'x i'
  of the array, of the comparison '|x i| < +∞', where '|a|' is 'max a (-a)' and the word '0x7F800000' denotes '+∞'.
  If the result is the word 1, both conjuncts are 1, so every comparison is 1, so 'max (x i) (-(x i)) < +∞' for every
  entry. An extended real 'a' is '-∞', '+∞' or a real: for 'a = -∞' and for 'a = +∞' the larger of 'a' and '-a' is '+∞',
  which is not below '+∞'; so 'a' is a real.
-/
import proofs.«101303_j84061099917852_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.FiniteInputs

open Idealize.ShloMosaic

/-- The single-precision word with sign 0, exponent all ones and significand 0 denotes '+∞'. -/
theorem ofBits_inf : Ideal.ofBits .f32 0x7F800000#32 = (⊤ : EReal) := by
  simp [Ideal.ofBits, Ideal.ieee]

/-- An extended real whose absolute value 'max x (-x)' is below '+∞' is a real: at '-∞' and at '+∞' that maximum
    is '+∞' itself. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One entry of the compared array: the comparison of '|x|' with the scalar '+∞' spread over the whole shape reads, at
    index 'i', 'max (x i) (-(x i)) < +∞'; so where it is 1 the entry is a real. -/
theorem real_of_elem {T : Shape} (hb : Cert.Pre_finite_inputs.S_.BroadcastsInDim T (![] : Fin 0 → Fin T.rank))
    (x : FVec Ideal T .f32) (i : T.Idx)
    (h : cmpf .olt (Host.absf x)
      (broadcastInDim T ![] hb (constant (F := Ideal) Cert.Pre_finite_inputs.S_ .f32 0x7F800000#32)) i = 1#1) :
    ∃ r : ℝ, x i = (r : EReal) := by
  apply real_of_abs_lt_top
  rw [← ofBits_inf]
  exact h

/-- If the precondition holds, every entry of both input arrays is a real number. The result word is the 'and' of two
    words; each is the 'and', from 1, of all comparisons of one array, and the result shape has a single index, so each
    comparison is 1. -/
theorem real_of_pre [Cert.Pre_finite_inputs.Facts]
    (x0 : FVec Ideal Cert.Pre_finite_inputs.S256x150x1024 .f32) (x1 : FVec Ideal Cert.Pre_finite_inputs.S1x40x1024 .f32)
    (h : Cert.Pre_finite_inputs.fn (F := Ideal) x0 x1 = fun _ => 1#1) :
    (∀ i, ∃ r : ℝ, x0 i = (r : EReal)) ∧ (∀ i, ∃ r : ℝ, x1 i = (r : EReal)) := by
  -- the shape with no axes has exactly one index
  haveI : Subsingleton Cert.Pre_finite_inputs.S_.Idx := ⟨fun a b => funext fun d => d.elim0⟩
  have h0 := congrFun h ValueIdx.ix0
  unfold Cert.Pre_finite_inputs.fn at h0
  dsimp only at h0
  obtain ⟨hA, hB⟩ := IntOp.andi_eq_one.1 h0
  refine ⟨fun i => ?_, fun i => ?_⟩
  · exact real_of_elem _ x0 i (Host.reduce_andi_all _ _ _ _ _ hA i)
  · exact real_of_elem _ x1 i (Host.reduce_andi_all _ _ _ _ _ hB i)

end Cert.FiniteInputs
-- ==== Proof.lean ====
/-
  The certificate: a Pallas kernel that scores every region of an image against a sentence and pools the scores over
  21 segments agrees, on the extended reals, with its reference, for finite inputs.

  Both programs weigh the 40 words of the sentence by a softmax of their cosines with a region (1024 features), score
  the region by its cosine with the weighted mixture of the words, and for each segment take `log (Σ exp (6 · score)) / 6`
  over the segment's regions. The reference forms the mixture. The kernel does not: the mixture's inner product with the
  region is the weights' sum against the words' inner products, and its squared norm is the quadratic form of the words'
  Gram matrix at the weights, clamped at zero; and it keeps the segment's sum at `10⁻³⁰` or above under the logarithm.
  For real inputs the two inner products and the two norms are equal by linearity, the clamp at zero does nothing
  because the quadratic form is a sum of squares, and by the Cauchy-Schwarz inequality every score is at least `-1`, so
  every term of a segment's sum is at least `exp (-6)` and the last clamp does nothing either.

  The kernel's array is read block by block (16 batch entries per grid point) and the blocks tile it; the reference's 21
  columns are read one by one and joined.
-/
import proofs.«101303_j84061099917852_2_alg».proof.Defs
import proofs.«101303_j84061099917852_2_alg».proof.Proof.Gen.Kernel
import proofs.«101303_j84061099917852_2_alg».proof.Proof.Gen.Kernel.Frame
import proofs.«101303_j84061099917852_2_alg».proof.Proof.Gen.KernelIdeal
import proofs.«101303_j84061099917852_2_alg».proof.Proof.Gen.KernelIdeal.Frame
import proofs.«101303_j84061099917852_2_alg».proof.Proof.Gen.KernelIdeal.Value
import proofs.«101303_j84061099917852_2_alg».proof.Proof.Gen.ReferenceIdeal
import proofs.«101303_j84061099917852_2_alg».proof.Proof.Gen.Pre_finite_inputs
import proofs.«101303_j84061099917852_2_alg».proof.Proof.ReferenceIdealRunP
import proofs.«101303_j84061099917852_2_alg».proof.Proof.ReferenceIdealReadP
import proofs.«101303_j84061099917852_2_alg».proof.Proof.KernelArray
import proofs.«101303_j84061099917852_2_alg».proof.Proof.ReferenceOut
import proofs.«101303_j84061099917852_2_alg».proof.Proof.Bridge
import proofs.«101303_j84061099917852_2_alg».proof.Proof.FiniteInputs
import proofs.«101303_j84061099917852_2_alg».proof.Proof.Consts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The one ledger entry: the table gives the guard under the logarithm the rational `10⁻³⁰`. -/
theorem preserves : Cert.preserves_Kernel_KernelIdeal :=
  IdealRules.named_const.statement Cert.KernelIdeal.κ "inv_1000000000000000000000000000000" .f32 0x0DA24260#32
    ((1 / 1000000000000000000000000000000 : ℝ) : EReal) rfl

/-- Both runs end with the result array at one function of the arguments: the kernel's at the pooled scores over the
    Gram-matrix arrangement, the reference's at the pooled scores over the mixture, equal for real inputs. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v161_eq, (hagree c).1, (hagree c).2]
  refine funext fun i => ?_
  obtain ⟨b, s, rfl⟩ : ∃ (b : Fin 256) (s : Fin 21), i = ix2 b s := ⟨i 0, i 1, eq_ix2 i⟩
  rw [Cert.ReferenceIdeal.OutValue.result_apply]
  show _ = Cert.KernelIdeal.ArrayValue.resultAt m c b s
  unfold Cert.KernelIdeal.ArrayValue.resultAt
  obtain ⟨h0, h1⟩ := Cert.FiniteInputs.real_of_pre _ _ (hpre c)
  exact Cert.Bridge.pooled_eq _ _ h0 h1 b s

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
